-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S64x512x128 : Shape := ⟨3, ![64, 512, 128]⟩
abbrev S64x512x1 : Shape := ⟨3, ![64, 512, 1]⟩
abbrev S64x512x512 : Shape := ⟨3, ![64, 512, 512]⟩
abbrev S64x1x512 : Shape := ⟨3, ![64, 1, 512]⟩
abbrev S64x1x1 : Shape := ⟨3, ![64, 1, 1]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S64x512x128 : S_.BroadcastsInDim S64x512x128 (![] : Fin 0 → Fin S64x512x128.rank)
  reducesTo_S64x512x128_S_d0_1_2 : S64x512x128.ReducesTo [0, 1, 2] S_
  bcast_S_S64x512x1 : S_.BroadcastsInDim S64x512x1 (![] : Fin 0 → Fin S64x512x1.rank)
  reducesTo_S64x512x1_S_d0_1_2 : S64x512x1.ReducesTo [0, 1, 2] S_
  bcast_S_S64x512x512 : S_.BroadcastsInDim S64x512x512 (![] : Fin 0 → Fin S64x512x512.rank)
  reducesTo_S64x512x512_S_d0_1_2 : S64x512x512.ReducesTo [0, 1, 2] S_
  bcast_S_S64x1x512 : S_.BroadcastsInDim S64x1x512 (![] : Fin 0 → Fin S64x1x512.rank)
  reducesTo_S64x1x512_S_d0_1_2 : S64x1x512.ReducesTo [0, 1, 2] S_
  bcast_S_S64x1x1 : S_.BroadcastsInDim S64x1x1 (![] : Fin 0 → Fin S64x1x1.rank)
  reducesTo_S64x1x1_S_d0_1_2 : S64x1x1.ReducesTo [0, 1, 2] S_

variable [Facts]

def fn_part2 {F : FTy → Type} [FloatOps F] (main_arg7 : FVec F S64x1x512 .f32) (main_arg8 : FVec F S64x1x1 .f32) (main_v33 : IVec S_ 1) : IVec S_ 1 :=
  let main_v34 : FVec F S64x1x512 .f32 := Host.absf main_arg7
  let main_cst_12 : FVec F S_ .f32 := constant S_ .f32 0x7F800000#32
  let main_v35 : FVec F S64x1x512 .f32 := broadcastInDim S64x1x512 ![] bcast_S_S64x1x512 main_cst_12
  let main_v36 : IVec S64x1x512 1 := cmpf .olt main_v34 main_v35
  let main_c_13 : IVec S_ 1 := constantI S_ 1 1#1
  let main_v37 : IVec S_ 1 := (fun x v => Host.reduce IntOp.andi x v reducesTo_S64x1x512_S_d0_1_2 h_S_) main_v36 main_c_13
  let main_v38 : IVec S_ 1 := andi main_v33 main_v37
  let main_v39 : FVec F S64x1x1 .f32 := Host.absf main_arg8
  let main_cst_14 : FVec F S_ .f32 := constant S_ .f32 0x7F800000#32
  let main_v40 : FVec F S64x1x1 .f32 := broadcastInDim S64x1x1 ![] bcast_S_S64x1x1 main_cst_14
  let main_v41 : IVec S64x1x1 1 := cmpf .olt main_v39 main_v40
  let main_c_15 : IVec S_ 1 := constantI S_ 1 1#1
  let main_v42 : IVec S_ 1 := (fun x v => Host.reduce IntOp.andi x v reducesTo_S64x1x1_S_d0_1_2 h_S_) main_v41 main_c_15
  let main_v43 : IVec S_ 1 := andi main_v38 main_v42
  main_v43

def fn_part1 {F : FTy → Type} [FloatOps F] (main_arg4 : FVec F S64x512x1 .f32) (main_arg5 : FVec F S64x512x512 .f32) (main_arg6 : FVec F S64x512x1 .f32) (main_arg7 : FVec F S64x1x512 .f32) (main_arg8 : FVec F S64x1x1 .f32) (main_v13 : IVec S_ 1) (main_v16 : IVec S64x512x512 1) : IVec S_ 1 :=
  let main_c_5 : IVec S_ 1 := constantI S_ 1 1#1
  let main_v17 : IVec S_ 1 := (fun x v => Host.reduce IntOp.andi x v reducesTo_S64x512x512_S_d0_1_2 h_S_) main_v16 main_c_5
  let main_v18 : IVec S_ 1 := andi main_v13 main_v17
  let main_v19 : FVec F S64x512x1 .f32 := Host.absf main_arg4
  let main_cst_6 : FVec F S_ .f32 := constant S_ .f32 0x7F800000#32
  let main_v20 : FVec F S64x512x1 .f32 := broadcastInDim S64x512x1 ![] bcast_S_S64x512x1 main_cst_6
  let main_v21 : IVec S64x512x1 1 := cmpf .olt main_v19 main_v20
  let main_c_7 : IVec S_ 1 := constantI S_ 1 1#1
  let main_v22 : IVec S_ 1 := (fun x v => Host.reduce IntOp.andi x v reducesTo_S64x512x1_S_d0_1_2 h_S_) main_v21 main_c_7
  let main_v23 : IVec S_ 1 := andi main_v18 main_v22
  let main_v24 : FVec F S64x512x512 .f32 := Host.absf main_arg5
  let main_cst_8 : FVec F S_ .f32 := constant S_ .f32 0x7F800000#32
  let main_v25 : FVec F S64x512x512 .f32 := broadcastInDim S64x512x512 ![] bcast_S_S64x512x512 main_cst_8
  let main_v26 : IVec S64x512x512 1 := cmpf .olt main_v24 main_v25
  let main_c_9 : IVec S_ 1 := constantI S_ 1 1#1
  let main_v27 : IVec S_ 1 := (fun x v => Host.reduce IntOp.andi x v reducesTo_S64x512x512_S_d0_1_2 h_S_) main_v26 main_c_9
  let main_v28 : IVec S_ 1 := andi main_v23 main_v27
  let main_v29 : FVec F S64x512x1 .f32 := Host.absf main_arg6
  let main_cst_10 : FVec F S_ .f32 := constant S_ .f32 0x7F800000#32
  let main_v30 : FVec F S64x512x1 .f32 := broadcastInDim S64x512x1 ![] bcast_S_S64x512x1 main_cst_10
  let main_v31 : IVec S64x512x1 1 := cmpf .olt main_v29 main_v30
  let main_c_11 : IVec S_ 1 := constantI S_ 1 1#1
  let main_v32 : IVec S_ 1 := (fun x v => Host.reduce IntOp.andi x v reducesTo_S64x512x1_S_d0_1_2 h_S_) main_v31 main_c_11
  let main_v33 : IVec S_ 1 := andi main_v28 main_v32
  fn_part2 (F := F) main_arg7 main_arg8 main_v33

def fn {F : FTy → Type} [FloatOps F] (main_arg0 : FVec F S2048x128 .f32) (main_arg1 : FVec F S64x512x128 .f32) (main_arg2 : FVec F S64x512x1 .f32) (main_arg3 : FVec F S64x512x512 .f32) (main_arg4 : FVec F S64x512x1 .f32) (main_arg5 : FVec F S64x512x512 .f32) (main_arg6 : FVec F S64x512x1 .f32) (main_arg7 : FVec F S64x1x512 .f32) (main_arg8 : FVec F S64x1x1 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S64x512x128 .f32 := Host.absf main_arg1
  let main_cst_0 : FVec F S_ .f32 := constant S_ .f32 0x7F800000#32
  let main_v5 : FVec F S64x512x128 .f32 := broadcastInDim S64x512x128 ![] bcast_S_S64x512x128 main_cst_0
  let main_v6 : IVec S64x512x128 1 := cmpf .olt main_v4 main_v5
  let main_c_1 : IVec S_ 1 := constantI S_ 1 1#1
  let main_v7 : IVec S_ 1 := (fun x v => Host.reduce IntOp.andi x v reducesTo_S64x512x128_S_d0_1_2 h_S_) main_v6 main_c_1
  let main_v8 : IVec S_ 1 := andi main_v3 main_v7
  let main_v9 : FVec F S64x512x1 .f32 := Host.absf main_arg2
  let main_cst_2 : FVec F S_ .f32 := constant S_ .f32 0x7F800000#32
  let main_v10 : FVec F S64x512x1 .f32 := broadcastInDim S64x512x1 ![] bcast_S_S64x512x1 main_cst_2
  let main_v11 : IVec S64x512x1 1 := cmpf .olt main_v9 main_v10
  let main_c_3 : IVec S_ 1 := constantI S_ 1 1#1
  let main_v12 : IVec S_ 1 := (fun x v => Host.reduce IntOp.andi x v reducesTo_S64x512x1_S_d0_1_2 h_S_) main_v11 main_c_3
  let main_v13 : IVec S_ 1 := andi main_v8 main_v12
  let main_v14 : FVec F S64x512x512 .f32 := Host.absf main_arg3
  let main_cst_4 : FVec F S_ .f32 := constant S_ .f32 0x7F800000#32
  let main_v15 : FVec F S64x512x512 .f32 := broadcastInDim S64x512x512 ![] bcast_S_S64x512x512 main_cst_4
  let main_v16 : IVec S64x512x512 1 := cmpf .olt main_v14 main_v15
  fn_part1 (F := F) main_arg4 main_arg5 main_arg6 main_arg7 main_arg8 main_v13 main_v16
-- ==== Kernel.lean ====
abbrev S2048x128 : Shape := ⟨2, ![2048, 128]⟩
abbrev S64x512x128 : Shape := ⟨3, ![64, 512, 128]⟩
abbrev S64x512x1 : Shape := ⟨3, ![64, 512, 1]⟩
abbrev S64x512x512 : Shape := ⟨3, ![64, 512, 512]⟩
abbrev S64x1x512 : Shape := ⟨3, ![64, 1, 512]⟩
abbrev S64x1x1 : Shape := ⟨3, ![64, 1, 1]⟩
abbrev S64x1x2048 : Shape := ⟨3, ![64, 1, 2048]⟩
abbrev S2x512x128 : Shape := ⟨3, ![2, 512, 128]⟩
abbrev S2x512x1 : Shape := ⟨3, ![2, 512, 1]⟩
abbrev S2x512x512 : Shape := ⟨3, ![2, 512, 512]⟩
abbrev S2x1x512 : Shape := ⟨3, ![2, 1, 512]⟩
abbrev S2x1x1 : Shape := ⟨3, ![2, 1, 1]⟩
abbrev S2x1x2048 : Shape := ⟨3, ![2, 1, 2048]⟩
abbrev S1x512x128 : Shape := ⟨3, ![1, 512, 128]⟩
abbrev S512x128 : Shape := ⟨2, ![512, 128]⟩
abbrev S512x2048 : Shape := ⟨2, ![512, 2048]⟩
abbrev S1x512x1 : Shape := ⟨3, ![1, 512, 1]⟩
abbrev S512x1 : Shape := ⟨2, ![512, 1]⟩
abbrev S1x512x512 : Shape := ⟨3, ![1, 512, 512]⟩
abbrev S512x512 : Shape := ⟨2, ![512, 512]⟩
abbrev S1x1x512 : Shape := ⟨3, ![1, 1, 512]⟩
abbrev S1x512 : Shape := ⟨2, ![1, 512]⟩
abbrev S1x2048 : Shape := ⟨2, ![1, 2048]⟩
abbrev S1x1x1 : Shape := ⟨3, ![1, 1, 1]⟩
abbrev S1x1 : Shape := ⟨2, ![1, 1]⟩
abbrev S1x1x2048 : Shape := ⟨3, ![1, 1, 2048]⟩
abbrev S2048x1x64 : Shape := ⟨3, ![2048, 1, 64]⟩

abbrev nBuf : Space → Nat
  | .hbm => 12
  | .vmem => 19
  | .smem => 0
  | _ => 0

abbrev bufTy : (tb : Table) → Fin (tcTables nBuf tb) → BufTy
  | .hbm, ⟨0, _⟩ => ⟨S2048x128, .f32⟩
  | .hbm, ⟨1, _⟩ => ⟨S64x512x128, .f32⟩
  | .hbm, ⟨2, _⟩ => ⟨S64x512x1, .f32⟩
  | .hbm, ⟨3, _⟩ => ⟨S64x512x512, .f32⟩
  | .hbm, ⟨4, _⟩ => ⟨S64x512x1, .f32⟩
  | .hbm, ⟨5, _⟩ => ⟨S64x512x512, .f32⟩
  | .hbm, ⟨6, _⟩ => ⟨S64x512x1, .f32⟩
  | .hbm, ⟨7, _⟩ => ⟨S64x1x512, .f32⟩
  | .hbm, ⟨8, _⟩ => ⟨S64x1x1, .f32⟩
  | .hbm, ⟨9, _⟩ => ⟨S2048x128, .bf16⟩
  | .hbm, ⟨10, _⟩ => ⟨S64x1x2048, .f32⟩
  | .hbm, ⟨11, _⟩ => ⟨S2048x1x64, .f32⟩
  | .local _ .vmem, ⟨0, _⟩ => ⟨S2048x128, .bf16⟩
  | .local _ .vmem, ⟨1, _⟩ => ⟨S2x512x128, .f32⟩
  | .local _ .vmem, ⟨2, _⟩ => ⟨S2x512x128, .f32⟩
  | .local _ .vmem, ⟨3, _⟩ => ⟨S2x512x1, .f32⟩
  | .local _ .vmem, ⟨4, _⟩ => ⟨S2x512x1, .f32⟩
  | .local _ .vmem, ⟨5, _⟩ => ⟨S2x512x512, .f32⟩
  | .local _ .vmem, ⟨6, _⟩ => ⟨S2x512x512, .f32⟩
  | .local _ .vmem, ⟨7, _⟩ => ⟨S2x512x1, .f32⟩
  | .local _ .vmem, ⟨8, _⟩ => ⟨S2x512x1, .f32⟩
  | .local _ .vmem, ⟨9, _⟩ => ⟨S2x512x512, .f32⟩
  | .local _ .vmem, ⟨10, _⟩ => ⟨S2x512x512, .f32⟩
  | .local _ .vmem, ⟨11, _⟩ => ⟨S2x512x1, .f32⟩
  | .local _ .vmem, ⟨12, _⟩ => ⟨S2x512x1, .f32⟩
  | .local _ .vmem, ⟨13, _⟩ => ⟨S2x1x512, .f32⟩
  | .local _ .vmem, ⟨14, _⟩ => ⟨S2x1x512, .f32⟩
  | .local _ .vmem, ⟨15, _⟩ => ⟨S2x1x1, .f32⟩
  | .local _ .vmem, ⟨16, _⟩ => ⟨S2x1x1, .f32⟩
  | .local _ .vmem, ⟨17, _⟩ => ⟨S2x1x2048, .f32⟩
  | .local _ .vmem, ⟨18, _⟩ => ⟨S2x1x2048, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2x512x128_S1x512x128_0_0_0 : ∀ a, (![0, 0, 0] : Fin 3 → Nat) a + S1x512x128.size a ≤ S2x512x128.size a
  h_S1x512x128 : 0 < S1x512x128.numel
  shapeCasts_S1x512x128_S512x128 : S1x512x128.ShapeCasts S512x128
  inb_S2x512x1_S1x512x1_0_0_0 : ∀ a, (![0, 0, 0] : Fin 3 → Nat) a + S1x512x1.size a ≤ S2x512x1.size a
  h_S1x512x1 : 0 < S1x512x1.numel
  shapeCasts_S1x512x1_S512x1 : S1x512x1.ShapeCasts S512x1
  broadcasts_S512x1_S512x2048 : S512x1.Broadcasts S512x2048
  inb_S2x512x512_S1x512x512_0_0_0 : ∀ a, (![0, 0, 0] : Fin 3 → Nat) a + S1x512x512.size a ≤ S2x512x512.size a
  h_S1x512x512 : 0 < S1x512x512.numel
  shapeCasts_S1x512x512_S512x512 : S1x512x512.ShapeCasts S512x512
  inb_S2x1x512_S1x1x512_0_0_0 : ∀ a, (![0, 0, 0] : Fin 3 → Nat) a + S1x1x512.size a ≤ S2x1x512.size a
  h_S1x1x512 : 0 < S1x1x512.numel
  shapeCasts_S1x1x512_S1x512 : S1x1x512.ShapeCasts S1x512
  inb_S2x1x1_S1x1x1_0_0_0 : ∀ a, (![0, 0, 0] : Fin 3 → Nat) a + S1x1x1.size a ≤ S2x1x1.size a
  h_S1x1x1 : 0 < S1x1x1.numel
  shapeCasts_S1x1x1_S1x1 : S1x1x1.ShapeCasts S1x1
  broadcasts_S1x1_S1x2048 : S1x1.Broadcasts S1x2048
  inb_S2x1x2048_S1x1x2048_0_0_0 : ∀ a, (![0, 0, 0] : Fin 3 → Nat) a + S1x1x2048.size a ≤ S2x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  inb_S2x512x128_S1x512x128_1_0_0 : ∀ a, (![1, 0, 0] : Fin 3 → Nat) a + S1x512x128.size a ≤ S2x512x128.size a
  inb_S2x512x1_S1x512x1_1_0_0 : ∀ a, (![1, 0, 0] : Fin 3 → Nat) a + S1x512x1.size a ≤ S2x512x1.size a
  inb_S2x512x512_S1x512x512_1_0_0 : ∀ a, (![1, 0, 0] : Fin 3 → Nat) a + S1x512x512.size a ≤ S2x512x512.size a
  inb_S2x1x512_S1x1x512_1_0_0 : ∀ a, (![1, 0, 0] : Fin 3 → Nat) a + S1x1x512.size a ≤ S2x1x512.size a
  inb_S2x1x1_S1x1x1_1_0_0 : ∀ a, (![1, 0, 0] : Fin 3 → Nat) a + S1x1x1.size a ≤ S2x1x1.size a
  inb_S2x1x2048_S1x1x2048_1_0_0 : ∀ a, (![1, 0, 0] : Fin 3 → Nat) a + S1x1x2048.size a ≤ S2x1x2048.size a
  transposes_S64x1x2048_S2048x1x64_2_1_0 : S64x1x2048.Transposes [2, 1, 0] S2048x1x64
  dot_S512x128_S2048x128_S512x2048_1_1_0_0_n_n_wf : DotDims.WF S512x128 S2048x128 S512x2048 [1] [1] [0] [0] [] []
  dot_S512x512_S512x2048_S512x2048_1_0_0_1_n_n_wf : DotDims.WF S512x512 S512x2048 S512x2048 [1] [0] [0] [1] [] []
  dot_S1x512_S512x2048_S1x2048_1_0_0_1_n_n_wf : DotDims.WF S1x512 S512x2048 S1x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S2048x128.size a
  hwx0_0 : ∀ i : grid0.Coords, EltTy.bits .bf16 = 32 ∨ (Rect.block (s := S2048x128) S2048x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x128.size a ≤ S64x512x128.size a
  hwx0_1 : ∀ i : grid0.Coords, EltTy.bits .f32 = 32 ∨ (Rect.block (s := S64x512x128) S2x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x512x1.size a ≤ S64x512x1.size a
  hwx0_2 : ∀ i : grid0.Coords, EltTy.bits .f32 = 32 ∨ (Rect.block (s := S64x512x1) S2x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x512x512.size a ≤ S64x512x512.size a
  hwx0_3 : ∀ i : grid0.Coords, EltTy.bits .f32 = 32 ∨ (Rect.block (s := S64x512x512) S2x512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x512x1.size a ≤ S64x512x1.size a
  hwx0_4 : ∀ i : grid0.Coords, EltTy.bits .f32 = 32 ∨ (Rect.block (s := S64x512x1) S2x512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x512x512.size a ≤ S64x512x512.size a
  hwx0_5 : ∀ i : grid0.Coords, EltTy.bits .f32 = 32 ∨ (Rect.block (s := S64x512x512) S2x512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x512x1.size a ≤ S64x512x1.size a
  hwx0_6 : ∀ i : grid0.Coords, EltTy.bits .f32 = 32 ∨ (Rect.block (s := S64x512x1) S2x512x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2x1x512.size a ≤ S64x1x512.size a
  hwx0_7 : ∀ i : grid0.Coords, EltTy.bits .f32 = 32 ∨ (Rect.block (s := S64x1x512) S2x1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2x1x1.size a ≤ S64x1x1.size a
  hwx0_8 : ∀ i : grid0.Coords, EltTy.bits .f32 = 32 ∨ (Rect.block (s := S64x1x1) S2x1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2x1x2048.size a ≤ S64x1x2048.size a
  hwx0_9 : ∀ i : grid0.Coords, EltTy.bits .f32 = 32 ∨ (Rect.block (s := S64x1x2048) S2x1x2048.size (cc0_transform_9 i) (hinb0_9 i)).WholeWords (EltTy.packing .f32)

variable [Facts₀]

def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S1x512_S512x2048_S1x2048_1_0_0_1_n_n : DotDims S1x512 S512x2048 S1x2048 where
  lhsContracting := [1]
  rhsContracting := [0]
  lhsNonContracting := [0]
  rhsNonContracting := [1]
  lhsBatch := []
  rhsBatch := []
  wf := dot_S1x512_S512x2048_S1x2048_1_0_0_1_n_n_wf

abbrev win0_0 : Pipeline.Window sig grid0 :=
  Pipeline.Window.ofSpec (Memref.whole main_v0) S2048x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2x512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2x512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2x512x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2x512x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S2x1x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S2x1x1.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v1) S2x1x2048.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S2048x128 : Shape := ⟨2, ![2048, 128]⟩
abbrev S64x512x128 : Shape := ⟨3, ![64, 512, 128]⟩
abbrev S64x512x1 : Shape := ⟨3, ![64, 512, 1]⟩
abbrev S64x512x512 : Shape := ⟨3, ![64, 512, 512]⟩
abbrev S64x1x512 : Shape := ⟨3, ![64, 1, 512]⟩
abbrev S64x1x1 : Shape := ⟨3, ![64, 1, 1]⟩
abbrev S64x512x2048 : Shape := ⟨3, ![64, 512, 2048]⟩
abbrev S_ : Shape := ⟨0, ![]⟩
abbrev S64x1x2048 : Shape := ⟨3, ![64, 1, 2048]⟩
abbrev S2048x1x64 : Shape := ⟨3, ![2048, 1, 64]⟩

abbrev nBuf : Space → Nat
  | .hbm => 31
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S64x512x128, .f32⟩
  | .hbm, ⟨2, _⟩ => ⟨S64x512x1, .f32⟩
  | .hbm, ⟨3, _⟩ => ⟨S64x512x512, .f32⟩
  | .hbm, ⟨4, _⟩ => ⟨S64x512x1, .f32⟩
  | .hbm, ⟨5, _⟩ => ⟨S64x512x512, .f32⟩
  | .hbm, ⟨6, _⟩ => ⟨S64x512x1, .f32⟩
  | .hbm, ⟨7, _⟩ => ⟨S64x1x512, .f32⟩
  | .hbm, ⟨8, _⟩ => ⟨S64x1x1, .f32⟩
  | .hbm, ⟨9, _⟩ => ⟨S64x512x2048, .f32⟩
  | .hbm, ⟨10, _⟩ => ⟨S64x512x2048, .f32⟩
  | .hbm, ⟨11, _⟩ => ⟨S64x512x2048, .f32⟩
  | .hbm, ⟨12, _⟩ => ⟨S_, .f32⟩
  | .hbm, ⟨13, _⟩ => ⟨S64x512x2048, .f32⟩
  | .hbm, ⟨14, _⟩ => ⟨S64x512x2048, .f32⟩
  | .hbm, ⟨15, _⟩ => ⟨S64x512x2048, .f32⟩
  | .hbm, ⟨16, _⟩ => ⟨S64x512x2048, .f32⟩
  | .hbm, ⟨17, _⟩ => ⟨S64x512x2048, .f32⟩
  | .hbm, ⟨18, _⟩ => ⟨S_, .f32⟩
  | .hbm, ⟨19, _⟩ => ⟨S64x512x2048, .f32⟩
  | .hbm, ⟨20, _⟩ => ⟨S64x512x2048, .f32⟩
  | .hbm, ⟨21, _⟩ => ⟨S64x512x2048, .f32⟩
  | .hbm, ⟨22, _⟩ => ⟨S64x512x2048, .f32⟩
  | .hbm, ⟨23, _⟩ => ⟨S64x512x2048, .f32⟩
  | .hbm, ⟨24, _⟩ => ⟨S_, .f32⟩
  | .hbm, ⟨25, _⟩ => ⟨S64x512x2048, .f32⟩
  | .hbm, ⟨26, _⟩ => ⟨S64x512x2048, .f32⟩
  | .hbm, ⟨27, _⟩ => ⟨S64x1x2048, .f32⟩
  | .hbm, ⟨28, _⟩ => ⟨S64x1x2048, .f32⟩
  | .hbm, ⟨29, _⟩ => ⟨S64x1x2048, .f32⟩
  | .hbm, ⟨30, _⟩ => ⟨S2048x1x64, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_call0_cst : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call1_cst : Ref sig .tc := ⟨.hbm, 18, rfl⟩
abbrev main_call1_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call2_cst : Ref sig .tc := ⟨.hbm, 24, rfl⟩
abbrev main_call2_v0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩

abbrev nD : Nat := 1
abbrev τ : Topo := Topo.v7x

variable {F : FTy → Type} [FloatOps F]

class Facts₀ : Prop where
  bcast_S64x512x1_S64x512x2048_0_1_2 : S64x512x1.BroadcastsInDim S64x512x2048 (![0, 1, 2] : Fin 3 → Fin S64x512x2048.rank)
  bcast_S_S64x512x2048 : S_.BroadcastsInDim S64x512x2048 (![] : Fin 0 → Fin S64x512x2048.rank)
  bcast_S64x1x1_S64x1x2048_0_1_2 : S64x1x1.BroadcastsInDim S64x1x2048 (![0, 1, 2] : Fin 3 → Fin S64x1x2048.rank)
  transposes_S64x1x2048_S2048x1x64_2_1_0 : S64x1x2048.Transposes [2, 1, 0] S2048x1x64
  dot_S64x512x128_S2048x128_S64x512x2048_2_1_01_0_n_n_wf : DotDims.WF S64x512x128 S2048x128 S64x512x2048 [2] [1] [0, 1] [0] [] []
  dot_S64x512x512_S64x512x2048_S64x512x2048_2_1_1_2_0_0_wf : DotDims.WF S64x512x512 S64x512x2048 S64x512x2048 [2] [1] [1] [2] [0] [0]
  dot_S64x1x512_S64x512x2048_S64x1x2048_2_1_1_2_0_0_wf : DotDims.WF S64x1x512 S64x512x2048 S64x1x2048 [2] [1] [1] [2] [0] [0]

variable [Facts₀]

def dot_S64x512x128_S2048x128_S64x512x2048_2_1_01_0_n_n : DotDims S64x512x128 S2048x128 S64x512x2048 where
  lhsContracting := [2]
  rhsContracting := [1]
  lhsNonContracting := [0, 1]
  rhsNonContracting := [0]
  lhsBatch := []
  rhsBatch := []
  wf := dot_S64x512x128_S2048x128_S64x512x2048_2_1_01_0_n_n_wf
def dot_S64x512x512_S64x512x2048_S64x512x2048_2_1_1_2_0_0 : DotDims S64x512x512 S64x512x2048 S64x512x2048 where
  lhsContracting := [2]
  rhsContracting := [1]
  lhsNonContracting := [1]
  rhsNonContracting := [2]
  lhsBatch := [0]
  rhsBatch := [0]
  wf := dot_S64x512x512_S64x512x2048_S64x512x2048_2_1_1_2_0_0_wf
def dot_S64x1x512_S64x512x2048_S64x1x2048_2_1_1_2_0_0 : DotDims S64x1x512 S64x512x2048 S64x1x2048 where
  lhsContracting := [2]
  rhsContracting := [1]
  lhsNonContracting := [1]
  rhsNonContracting := [2]
  lhsBatch := [0]
  rhsBatch := [0]
  wf := dot_S64x1x512_S64x512x2048_S64x1x2048_2_1_1_2_0_0_wf

class Facts : Prop extends Facts₀ where

variable [Facts]
-- ==== Proof.Mlp.lean ====
/-
  A stack of 64 four-layer perceptrons that share one input, as one function on the extended reals.

  Copy k has weights W1(k) : 512×128, W2(k), W3(k) : 512×512, W4(k) : 1×512 and bias columns b1(k), b2(k), b3(k) : 512,
  b4(k) : 1.  For the input row x(b) : 128 of batch entry b it computes
      a1(o) = max(Σ_i W1(k,o,i)·x(b,i) + b1(k,o), 0),
      a2(o) = max(Σ_i W2(k,o,i)·a1(i) + b2(k,o), 0),
      a3(o) = max(Σ_i W3(k,o,i)·a2(i) + b3(k,o), 0),
      y     =     Σ_i W4(k,0,i)·a3(i) + b4(k),
  and the stack's result at (k, 0, b) is y.  Everything is a sum of products, a sum with a bias and a maximum with zero, in
  one fixed order, so the function is defined on all extended reals and no finiteness is needed to state it.
-/
import Idealize.ShloMosaic.Lib.ValueIdx
import Idealize.ShloMosaic.PureOps.Ideal

noncomputable section

namespace Cert.Mlp

open Idealize.ShloMosaic Idealize.ShloMosaic.ValueIdx
open scoped BigOperators

/-- The float zero word read at the ideal values. -/
abbrev zeroWord : EReal := Ideal.ofBits .f32 0x00000000#32

/-- Output o of one dense layer: row o of the weights against the input vector, plus the bias at o. -/
def layer {n K : ℕ} (w : Fin n → Fin K → EReal) (c : Fin n → EReal) (h : Fin K → EReal) (o : Fin n) : EReal :=
  (∑ i : Fin K, w o i * h i) + c o

/-- The positive part: the maximum with the zero word. -/
def pos (z : EReal) : EReal := max z zeroWord

/-- One copy's network at batch entry b: three layers with the positive part, then the last row and its bias. -/
def mlp (x : Fin 2048 → Fin 128 → EReal)
    (w1 : Fin 512 → Fin 128 → EReal) (c1 : Fin 512 → EReal)
    (w2 : Fin 512 → Fin 512 → EReal) (c2 : Fin 512 → EReal)
    (w3 : Fin 512 → Fin 512 → EReal) (c3 : Fin 512 → EReal)
    (w4 : Fin 512 → EReal) (c4 : EReal) (b : Fin 2048) : EReal :=
  (∑ i : Fin 512, w4 i *
    pos (layer w3 c3 (fun i2 => pos (layer w2 c2 (fun i1 => pos (layer w1 c1 (x b) i1)) i2)) i)) + c4

/-- The stack of 64 copies as one array of shape [64, 1, 2048]: entry (k, 0, b) is copy k's network at batch entry b. -/
def stack (x : (⟨2, ![2048, 128]⟩ : Shape).Idx → EReal)
    (W1 : (⟨3, ![64, 512, 128]⟩ : Shape).Idx → EReal) (B1 : (⟨3, ![64, 512, 1]⟩ : Shape).Idx → EReal)
    (W2 : (⟨3, ![64, 512, 512]⟩ : Shape).Idx → EReal) (B2 : (⟨3, ![64, 512, 1]⟩ : Shape).Idx → EReal)
    (W3 : (⟨3, ![64, 512, 512]⟩ : Shape).Idx → EReal) (B3 : (⟨3, ![64, 512, 1]⟩ : Shape).Idx → EReal)
    (W4 : (⟨3, ![64, 1, 512]⟩ : Shape).Idx → EReal) (B4 : (⟨3, ![64, 1, 1]⟩ : Shape).Idx → EReal) :
    (⟨3, ![64, 1, 2048]⟩ : Shape).Idx → EReal :=
  fun j => mlp (fun b i => x (ix2 b i))
    (fun o i => W1 (ix3 (j 0) o i)) (fun o => B1 (ix3 (j 0) o (0 : Fin 1)))
    (fun o i => W2 (ix3 (j 0) o i)) (fun o => B2 (ix3 (j 0) o (0 : Fin 1)))
    (fun o i => W3 (ix3 (j 0) o i)) (fun o => B3 (ix3 (j 0) o (0 : Fin 1)))
    (fun i => W4 (ix3 (j 0) (0 : Fin 1) i)) (B4 (ix3 (j 0) (0 : Fin 1) (0 : Fin 1))) (j 2)

end Cert.Mlp

end
-- ==== Proof.LibSplit.lean ====
/-
  Small facts on the extended reals, stated for any extents.

  * A sum over K = a + b + c consecutive indices is the sum over the first a, plus the sum over the next b, plus the
    sum over the last c.  Only associativity of addition is used, so it holds with infinite terms too.
  * Multiplying by the reciprocal 1 / d of a divisor d ≠ 0 is dividing by d, for every extended real numerator:
    off zero the quotient x / d is x · d⁻¹, and 1 / d is 1 · d⁻¹ = d⁻¹.
  * The larger of anything and 1 is not zero.
  * The product of an M×K by a K×N matrix, accumulated into a zero splat or not, has at entry (r, c) the sum over k of
    X(r,k) · W(k,c).
-/
import Idealize.ShloMosaic.Lib.StackMember
import Idealize.ShloMosaic.Lib.KernelVsHost
import Idealize.ShloMosaic.Lib.ValueIdx
import Idealize.ShloMosaic.PureOps.Ideal.Laws

noncomputable section

namespace Cert.Bridge.Split

open Idealize.ShloMosaic Idealize.ShloMosaic.ValueIdx
open scoped BigOperators

/-- A sum over a + b + c indices, taken in three consecutive runs. -/
theorem sum_three {M : Type*} [AddCommMonoid M] {a b c K : ℕ} (hK : a + b + c = K) (f : Fin K → M) :
    ∑ j : Fin K, f j
      = (∑ j : Fin a, f ⟨j.val, by omega⟩ + ∑ j : Fin b, f ⟨a + j.val, by omega⟩)
        + ∑ j : Fin c, f ⟨a + b + j.val, by omega⟩ := by
  subst hK
  rw [Fin.sum_univ_add, Fin.sum_univ_add]
  rfl

/-- The float word of 1.0 reads the real number one. -/
theorem ofBits_one_f32 : Ideal.ofBits .f32 0x3F800000#32 = 1 := by
  simp [Ideal.ofBits, Ideal.ieee, -EReal.coe_mul]; norm_num

/-- Times the reciprocal of a nonzero divisor is the quotient by it, whatever the numerator. -/
theorem mul_one_div {one d : EReal} (h1 : one = 1) (hd : d ≠ 0) (s : EReal) :
    s * Ideal.div one d = Ideal.div s d := by
  subst h1
  unfold Ideal.div
  rw [if_neg hd, if_neg hd, one_mul]

/-- The larger of anything and one is at least one, so it is not zero. -/
theorem max_one_ne_zero {one : EReal} (h1 : one = 1) (x : EReal) : max x one ≠ 0 := by
  subst h1
  exact ne_of_gt (lt_of_lt_of_le zero_lt_one (le_max_right x 1))

variable {M K N : ℕ}

/-- A kernel's product into the zero splat, with the plain contraction, at entry (r, c). -/
theorem matmul_zero_plain_apply {φ₁ φ₂ : FTy} (d : DotDims ⟨2, ![M, K]⟩ ⟨2, ![K, N]⟩ ⟨2, ![M, N]⟩)
    (hd : d = DotDims.plain M K N) (X : FVec Ideal ⟨2, ![M, K]⟩ φ₁) (W : FVec Ideal ⟨2, ![K, N]⟩ φ₂)
    (r : Fin M) (c : Fin N) :
    matmul d none X W (constant ⟨2, ![M, N]⟩ .f32 0x00000000#32) (ix2 r c) = ∑ k : Fin K, X (ix2 r k) * W (ix2 k c) := by
  subst hd
  rw [matmul_zero_eq_dotGeneral]
  exact StackMember.dotGeneral_plain_apply none X W r c

/-- A host's product with the plain contraction, at entry (r, c). -/
theorem dotGeneral_plain_apply {φ₁ φ₂ : FTy} (d : DotDims ⟨2, ![M, K]⟩ ⟨2, ![K, N]⟩ ⟨2, ![M, N]⟩)
    (hd : d = DotDims.plain M K N) (X : FVec Ideal ⟨2, ![M, K]⟩ φ₁) (W : FVec Ideal ⟨2, ![K, N]⟩ φ₂)
    (r : Fin M) (c : Fin N) :
    Host.dotGeneral d none X W (ix2 r c) = ∑ k : Fin K, X (ix2 r k) * W (ix2 k c) := by
  subst hd
  exact StackMember.dotGeneral_plain_apply none X W r c

end Cert.Bridge.Split

end
-- ==== Proof.LibMatmulNT.lean ====
/-
  A matrix product against the transpose, read at an entry.

  A kernel's product of an M×K matrix X by an N×K matrix W contracted on the LAST axis of both (X · Wᵀ), accumulated into a
  zero splat, has at entry (r, c) the sum over k of X(r,k) · W(c,k).  At the ideal values, for any extents and any float
  formats of the operands.  The contraction index has one axis, so the sum over it is re-indexed by its one coordinate.
-/
import Idealize.ShloMosaic.Lib.ValueIdx
import Idealize.ShloMosaic.PureOps.Ideal.Laws

noncomputable section

namespace Cert.Bridge.MatmulNT

open Idealize.ShloMosaic Idealize.ShloMosaic.ValueIdx
open scoped BigOperators

variable {M K N : ℕ}

/-- X · Wᵀ into the zero splat, at entry (r, c): the sum over k of X(r,k) · W(c,k). -/
theorem matmul_zero_transposedRhs_apply {φ₁ φ₂ : FTy} (d : DotDims ⟨2, ![M, K]⟩ ⟨2, ![N, K]⟩ ⟨2, ![M, N]⟩)
    (hd : d = DotDims.transposedRhs M K N) (X : FVec Ideal ⟨2, ![M, K]⟩ φ₁) (W : FVec Ideal ⟨2, ![N, K]⟩ φ₂)
    (r : Fin M) (c : Fin N) :
    matmul d none X W (constant ⟨2, ![M, N]⟩ .f32 0x00000000#32) (ix2 r c) = ∑ k : Fin K, X (ix2 r k) * W (ix2 c k) := by
  subst hd
  show FloatOps.matmul _ none X W (constant _ .f32 0x00000000#32) (ix2 r c) = _
  rw [Ideal.matmul_constant_zero_apply, ← Equiv.sum_comp (contrEquiv1 (DotDims.transposedRhs M K N) K rfl rfl).symm]
  refine Finset.sum_congr rfl fun k _ => ?_
  have ck := contrEquiv1_symm_val (DotDims.transposedRhs M K N) K rfl rfl k
  have el : (DotDims.transposedRhs M K N).lhsIdx (ix2 r c) ((contrEquiv1 _ K rfl rfl).symm k) = ix2 r k := by
    funext ax; apply Fin.ext
    match ax with
    | ⟨0, _⟩ => simp [DotDims.lhsIdx, DotDims.transposedRhs]; rfl
    | ⟨1, _⟩ => simp [DotDims.lhsIdx, DotDims.transposedRhs]; exact ck
  have er : (DotDims.transposedRhs M K N).rhsIdx (ix2 r c) ((contrEquiv1 _ K rfl rfl).symm k) = ix2 c k := by
    funext ax; apply Fin.ext
    match ax with
    | ⟨0, _⟩ => simp [DotDims.rhsIdx, DotDims.transposedRhs]; rfl
    | ⟨1, _⟩ => simp [DotDims.rhsIdx, DotDims.transposedRhs]; exact ck
  rw [el, er]

end Cert.Bridge.MatmulNT

end
-- ==== Proof.LibRowReduce.lean ====
/-
  Row-wise reductions of a matrix and the column layouts that carry their results back, read entry by entry.

  For an a×b matrix X, reducing along the second axis gives one value per row p: the sum, or the maximum, over the b
  entries X(p, 0), …, X(p, b-1).  A kernel computes it with a lane reduction, a host program with a one-operand reduce
  from an initial value; both are the same fold over the row's coordinates.  The reduced vector [a] is then laid out as
  a column [a, 1] and spread over b columns, so that entry (p, c) of the result is the value of row p.  Nothing here uses
  more than commutativity and associativity of the reduced operation, so every statement holds at the infinities too.
  Stated for any extents a and b.
-/
import Idealize.ShloMosaic.Lib.Pipeline.Value
import Idealize.ShloMosaic.Lib.ValueIdx
import Idealize.ShloMosaic.Lib.ValueLayout
import Idealize.ShloMosaic.PureOps.Ideal.Laws

noncomputable section

namespace Cert.RowReduce

open Idealize.ShloMosaic Idealize.ShloMosaic.ValueIdx
open scoped BigOperators

variable {α : Type} {a b : ℕ}

/-! ## Column layouts -/

/-- A vector [a] laid out as the column [a, 1] reads, at (i, u), the vector at i. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] spread over b columns reads, at (p, c), the column at (p, 0). -/
theorem broadcastTo_a1_ab_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] spread over b columns through its column layout reads, at (p, c), the vector at p. -/
theorem column_spread_apply (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) := by
  rw [broadcastTo_a1_ab_apply, shapeCast_a_a1_apply]

/-! ## The row's entries, as the reduction names them -/

/-- Row p of an a×b matrix with the column k put back is the entry (p, k). -/
theorem lift_row (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

variable {φ : FTy}

/-- A kernel's lane sum of an a×b block, at row p: the sum of the row's entries. -/
theorem laneSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- A kernel's lane maximum of an a×b block, at row p: the fold of max over the row's entries, from the accumulator's
    value. -/
theorem laneMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  rw [Ideal.multiReduction_maximumf_single]
  exact congrArg (Finset.fold max _ · Finset.univ) (funext fun k => congrArg src (lift_row h p k))

/-- A host's sum along the rows of an a×b array, at row p: the initial value plus the sum of the row's entries. -/
theorem hostRowSum_apply (h' : (⟨2, ![a, b]⟩ : Shape).ReducesTo [1] ⟨1, ![a]⟩) (h : (⟨2, ![a, b]⟩ : Shape).Reduces [1] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h]
  exact congrArg (init + ·) (Finset.sum_congr rfl fun k _ => congrArg x (lift_row h p k))

/-- A host's maximum along the rows of an a×b array, at row p: the fold of max over the row's entries, from the initial
    value. -/
theorem hostRowMax_apply {u : Shape} (h' : (⟨2, ![a, b]⟩ : Shape).ReducesTo [1] ⟨1, ![a]⟩)
    (h : (⟨2, ![a, b]⟩ : Shape).Reduces [1] ⟨1, ![a]⟩) (x : FVec Ideal ⟨2, ![a, b]⟩ φ) (init : u.Idx → Ideal φ) (hu : 0 < u.numel)
    (p : Fin a) :
    Host.reduce FloatOps.maximumf x init h' hu (ix1 p)
      = (Finset.univ : Finset (Fin b)).fold max (init (Shape.Idx.first hu)) (fun k => x (ix2 p k)) := by
  rw [Host.reduce_eq_fold_single FloatOps.maximumf x init h' h hu]
  exact congrArg (Finset.fold max _ · Finset.univ) (funext fun k => congrArg x (lift_row h p k))

end Cert.RowReduce

end
-- ==== Proof.LibColumnLayer.lean ====
/-
  A dense layer in column layout, read entry by entry on the extended reals, for any extents.

  The activations of a batch are kept as a K×N matrix H whose column q belongs to batch entry q; a layer multiplies by
  its M×K weight matrix A from the left and adds its bias, held as a column M×1 and spread over the N columns.  Entry
  (r, q) of the result is the sum over k of A(r,k)·H(k,q), plus the bias at r.  The first layer of such a network often
  takes its input as an N×K matrix X (one row per batch entry) and contracts the last axis of both operands; entry
  (r, q) is then the sum over k of A(r,k)·X(q,k), plus the bias at r.  The product is accumulated into a zero splat, which
  contributes nothing.  Only the definition of the operations is used, so both statements hold at the infinities too,
  and for any float formats of the two operands.
-/
import Idealize.ShloMosaic.Lib.ValueIdx
import Idealize.ShloMosaic.Lib.ValueLayout
import Idealize.ShloMosaic.Lib.Pipeline.Value
import Idealize.ShloMosaic.PureOps.Ideal.Laws
import proofs.«173759_j57612691308943_2_alg».proof.Proof.LibSplit
import proofs.«173759_j57612691308943_2_alg».proof.Proof.LibMatmulNT
import proofs.«173759_j57612691308943_2_alg».proof.Proof.LibRowReduce

noncomputable section

namespace Cert.ColumnLayer

open Idealize.ShloMosaic Idealize.ShloMosaic.ValueIdx
open scoped BigOperators

variable {M K N : ℕ} {φ₁ φ₂ : FTy}

/-- A·H into the zero splat plus a bias column spread over the columns, at entry (r, q). -/
theorem preact_plain_apply (d : DotDims ⟨2, ![M, K]⟩ ⟨2, ![K, N]⟩ ⟨2, ![M, N]⟩) (hd : d = DotDims.plain M K N)
    (A : FVec Ideal ⟨2, ![M, K]⟩ φ₁) (H : FVec Ideal ⟨2, ![K, N]⟩ φ₂) (c : FVec Ideal ⟨2, ![M, 1]⟩ .f32)
    (hb : (⟨2, ![M, 1]⟩ : Shape).Broadcasts ⟨2, ![M, N]⟩) (r : Fin M) (q : Fin N) :
    addf (matmul d none A H (constant ⟨2, ![M, N]⟩ .f32 0x00000000#32)) (broadcastTo ⟨2, ![M, N]⟩ c hb) (ix2 r q)
      = (∑ k : Fin K, A (ix2 r k) * H (ix2 k q)) + c (ix2 r (0 : Fin 1)) := by
  rw [addf_apply, Cert.Bridge.Split.matmul_zero_plain_apply d hd, Cert.RowReduce.broadcastTo_a1_ab_apply]

/-- A·Xᵀ into the zero splat (both operands contracted on their last axis) plus a bias column spread over the columns,
    at entry (r, q). -/
theorem preact_transposedRhs_apply (d : DotDims ⟨2, ![M, K]⟩ ⟨2, ![N, K]⟩ ⟨2, ![M, N]⟩) (hd : d = DotDims.transposedRhs M K N)
    (A : FVec Ideal ⟨2, ![M, K]⟩ φ₁) (X : FVec Ideal ⟨2, ![N, K]⟩ φ₂) (c : FVec Ideal ⟨2, ![M, 1]⟩ .f32)
    (hb : (⟨2, ![M, 1]⟩ : Shape).Broadcasts ⟨2, ![M, N]⟩) (r : Fin M) (q : Fin N) :
    addf (matmul d none A X (constant ⟨2, ![M, N]⟩ .f32 0x00000000#32)) (broadcastTo ⟨2, ![M, N]⟩ c hb) (ix2 r q)
      = (∑ k : Fin K, A (ix2 r k) * X (ix2 q k)) + c (ix2 r (0 : Fin 1)) := by
  rw [addf_apply, Cert.Bridge.MatmulNT.matmul_zero_transposedRhs_apply d hd, Cert.RowReduce.broadcastTo_a1_ab_apply]

end Cert.ColumnLayer

end
-- ==== Proof.KernelNet.lean ====
/-
  What the kernel body computes for one copy, read at an entry.

  At a grid point the body holds two copies' weights.  For each copy it takes the copy's slabs — W1 as a [1,512,128]
  block, the bias columns as [1,512,1], W2 and W3 as [1,512,512], W4 as [1,1,512], b4 as [1,1,1] — and the shared
  input x as a 2048×128 matrix, and runs the four layers with the activations kept as 512×2048 matrices (one column
  per batch entry).  The changes of float format are the identity on the extended reals, and every product is
  accumulated into a zero splat, so the 1×1×2048 block it stores holds, at (0, 0, b), the network of Mlp.lean on that
  copy's slabs at batch entry b.  The body's printed values are restated with one name per layer, and the two stores'
  payloads are these names composed (by unfolding).
-/
import proofs.«173759_j57612691308943_2_alg».proof.Proof.Gen.KernelIdeal.Skeleton
import proofs.«173759_j57612691308943_2_alg».proof.Proof.Mlp
import proofs.«173759_j57612691308943_2_alg».proof.Proof.LibColumnLayer

noncomputable section

namespace Cert.KernelIdeal.Net

open Cert.KernelIdeal Cert.KernelIdeal.Gen Idealize.ShloMosaic Idealize.ShloMosaic.ValueIdx Cert.Mlp
open scoped BigOperators

/-- The positive part of a 512×2048 matrix of activations, entry by entry. -/
def relu (z : FVec Ideal S512x2048 .f32) : FVec Ideal S512x2048 .f32 :=
  maximumf z (broadcast S512x2048 (Scalar.ofBits (F := Ideal) .f32 0x00000000#32))

/-- The first layer before the positive part: W1's slab against the input (both contracted on the feature axis),
    plus the bias column. -/
def pre1 (w : Vec Ideal S1x512x128 .f32) (x : FVec Ideal S2048x128 .bf16) (c : Vec Ideal S1x512x1 .f32) :
    FVec Ideal S512x2048 .f32 :=
  addf (matmul dot_S512x128_S2048x128_S512x2048_1_1_0_0_n_n none
      (truncf .bf16 (shapeCast S512x128 w shapeCasts_S1x512x128_S512x128) bitsLt_bf16_f32) x
      (constant (F := Ideal) S512x2048 .f32 0x00000000#32))
    (broadcastTo S512x2048 (shapeCast S512x1 c shapeCasts_S1x512x1_S512x1) broadcasts_S512x1_S512x2048)

/-- A hidden layer before the positive part: a 512×512 slab against the activations, plus the bias column. -/
def pre (w : Vec Ideal S1x512x512 .f32) (h : FVec Ideal S512x2048 .f32) (c : Vec Ideal S1x512x1 .f32) :
    FVec Ideal S512x2048 .f32 :=
  addf (matmul dot_S512x512_S512x2048_S512x2048_1_0_0_1_n_n none
      (truncf .bf16 (shapeCast S512x512 w shapeCasts_S1x512x512_S512x512) bitsLt_bf16_f32)
      (truncf .bf16 h bitsLt_bf16_f32)
      (constant (F := Ideal) S512x2048 .f32 0x00000000#32))
    (broadcastTo S512x2048 (shapeCast S512x1 c shapeCasts_S1x512x1_S512x1) broadcasts_S512x1_S512x2048)

/-- The last layer: W4's one row against the activations, plus b4, laid out as the 1×1×2048 block that is stored. -/
def last (w : Vec Ideal S1x1x512 .f32) (h : FVec Ideal S512x2048 .f32) (c : Vec Ideal S1x1x1 .f32) :
    FVec Ideal S1x1x2048 .f32 :=
  shapeCast S1x1x2048
    (addf (matmul dot_S1x512_S512x2048_S1x2048_1_0_0_1_n_n none
        (truncf .bf16 (shapeCast S1x512 w shapeCasts_S1x1x512_S1x512) bitsLt_bf16_f32)
        (truncf .bf16 h bitsLt_bf16_f32)
        (constant (F := Ideal) S1x2048 .f32 0x00000000#32))
      (broadcastTo S1x2048 (shapeCast S1x1 c shapeCasts_S1x1x1_S1x1) broadcasts_S1x1_S1x2048))
    shapeCasts_S1x2048_S1x1x2048

/-- One copy's four layers on its slabs. -/
def net (x : Vec Ideal S2048x128 .bf16) (w1 : Vec Ideal S1x512x128 .f32) (c1 : Vec Ideal S1x512x1 .f32)
    (w2 : Vec Ideal S1x512x512 .f32) (c2 : Vec Ideal S1x512x1 .f32)
    (w3 : Vec Ideal S1x512x512 .f32) (c3 : Vec Ideal S1x512x1 .f32)
    (w4 : Vec Ideal S1x1x512 .f32) (c4 : Vec Ideal S1x1x1 .f32) : FVec Ideal S1x1x2048 .f32 :=
  last w4 (relu (pre w3 (relu (pre w2 (relu (pre1 w1 (shapeCast S2048x128 x shapeCasts_S2048x128_S2048x128) c1)) c2)) c3)) c4

/-! ## The stores' payloads are the network on the loaded slabs -/

/-- The first store's payload (copy 0 of the point), over the values the body loads. -/
theorem pay_first (v0 : Vec Ideal S2048x128 .bf16) (v2 : Vec Ideal S1x512x128 .f32) (v6 : Vec Ideal S1x512x1 .f32)
    (v13 : Vec Ideal S1x512x512 .f32) (v17 : Vec Ideal S1x512x1 .f32) (v24 : Vec Ideal S1x512x512 .f32)
    (v28 : Vec Ideal S1x512x1 .f32) (v35 : Vec Ideal S1x1x512 .f32) (v39 : Vec Ideal S1x1x1 .f32) :
    k0_pay5 (k0_pay3 v0 v2 v6 v13 v17 v24 v28) (k0_pay4 (F := Ideal)) v35 v39 = net v0 v2 v6 v13 v17 v24 v28 v35 v39 := rfl

/-- The second store's payload (copy 1 of the point), over the values the body loads. -/
theorem pay_second (v0 : Vec Ideal S2048x128 .bf16) (v46 : Vec Ideal S1x512x128 .f32) (v50 : Vec Ideal S1x512x1 .f32)
    (v57 : Vec Ideal S1x512x512 .f32) (v61 : Vec Ideal S1x512x1 .f32) (v68 : Vec Ideal S1x512x512 .f32)
    (v72 : Vec Ideal S1x512x1 .f32) (v79 : Vec Ideal S1x1x512 .f32) (v83 : Vec Ideal S1x1x1 .f32) :
    k0_pay1 (k0_pay6 (k0_pay2 v0) v46 v50 v57 v61) (k0_pay7 (F := Ideal)) v68 v72 v79 v83
      = net v0 v46 v50 v57 v61 v68 v72 v79 v83 := rfl

/-! ## Each layer at an entry -/

theorem relu_apply (z : FVec Ideal S512x2048 .f32) (o : Fin 512) (b : Fin 2048) :
    relu z (ix2 o b) = pos (z (ix2 o b)) := rfl

theorem pre1_apply (w : Vec Ideal S1x512x128 .f32) (x : FVec Ideal S2048x128 .bf16) (c : Vec Ideal S1x512x1 .f32)
    (o : Fin 512) (b : Fin 2048) :
    pre1 w x c (ix2 o b)
      = (∑ i : Fin 128, w (ix3 (0 : Fin 1) o i) * x (ix2 b i)) + c (ix3 (0 : Fin 1) o (0 : Fin 1)) := by
  unfold pre1
  refine (Cert.ColumnLayer.preact_transposedRhs_apply (M := 512) (K := 128) (N := 2048) _ rfl _ _ _ _ o b).trans ?_
  simp only [truncf_apply, shapeCast_1ab_ab_apply]

theorem pre_apply (w : Vec Ideal S1x512x512 .f32) (h : FVec Ideal S512x2048 .f32) (c : Vec Ideal S1x512x1 .f32)
    (o : Fin 512) (b : Fin 2048) :
    pre w h c (ix2 o b)
      = (∑ i : Fin 512, w (ix3 (0 : Fin 1) o i) * h (ix2 i b)) + c (ix3 (0 : Fin 1) o (0 : Fin 1)) := by
  unfold pre
  refine (Cert.ColumnLayer.preact_plain_apply (M := 512) (K := 512) (N := 2048) _ rfl _ _ _ _ o b).trans ?_
  simp only [truncf_apply, shapeCast_1ab_ab_apply]

theorem last_apply (w : Vec Ideal S1x1x512 .f32) (h : FVec Ideal S512x2048 .f32) (c : Vec Ideal S1x1x1 .f32)
    (b : Fin 2048) :
    last w h c (ix3 (0 : Fin 1) (0 : Fin 1) b)
      = (∑ i : Fin 512, w (ix3 (0 : Fin 1) (0 : Fin 1) i) * h (ix2 i b)) + c (ix3 (0 : Fin 1) (0 : Fin 1) (0 : Fin 1)) := by
  unfold last
  refine (shapeCast_ab_1ab_apply _ _ (0 : Fin 1) (0 : Fin 1) b).trans ?_
  refine (Cert.ColumnLayer.preact_plain_apply (M := 1) (K := 512) (N := 2048) _ rfl _ _ _ _ (0 : Fin 1) b).trans ?_
  simp only [truncf_apply, shapeCast_1ab_ab_apply]

/-- One copy's block at (0, 0, b) is the network on the copy's slabs at batch entry b. -/
theorem net_apply (x : Vec Ideal S2048x128 .bf16) (w1 : Vec Ideal S1x512x128 .f32) (c1 : Vec Ideal S1x512x1 .f32)
    (w2 : Vec Ideal S1x512x512 .f32) (c2 : Vec Ideal S1x512x1 .f32)
    (w3 : Vec Ideal S1x512x512 .f32) (c3 : Vec Ideal S1x512x1 .f32)
    (w4 : Vec Ideal S1x1x512 .f32) (c4 : Vec Ideal S1x1x1 .f32) (b : Fin 2048) :
    net x w1 c1 w2 c2 w3 c3 w4 c4 (ix3 (0 : Fin 1) (0 : Fin 1) b)
      = mlp (fun b i => x (ix2 b i))
          (fun o i => w1 (ix3 (0 : Fin 1) o i)) (fun o => c1 (ix3 (0 : Fin 1) o (0 : Fin 1)))
          (fun o i => w2 (ix3 (0 : Fin 1) o i)) (fun o => c2 (ix3 (0 : Fin 1) o (0 : Fin 1)))
          (fun o i => w3 (ix3 (0 : Fin 1) o i)) (fun o => c3 (ix3 (0 : Fin 1) o (0 : Fin 1)))
          (fun i => w4 (ix3 (0 : Fin 1) (0 : Fin 1) i)) (c4 (ix3 (0 : Fin 1) (0 : Fin 1) (0 : Fin 1))) b := by
  unfold net
  rw [last_apply]
  simp only [relu_apply, pre_apply, pre1_apply, shapeCast_self]
  rfl

end Cert.KernelIdeal.Net

end
-- ==== Proof.LibSlab.lean ====
/-
  Reading one slab of a stack, for any extents.

  Slab k of a stack X of n slabs (each a × b) is read through the unit-stride rectangle that starts at (k, 0, 0) and has
  sizes (1, a, b): the rectangle puts its index (0, p, j) at (k, p, j), so the slab's entry (0, p, j) is X(k, p, j).
-/
import Idealize.ShloMosaic.Lib.Pipeline.FrameBody
import Idealize.ShloMosaic.Lib.ValueIdx

noncomputable section

namespace Cert.Bridge.Slab

open Idealize.ShloMosaic Idealize.ShloMosaic.ValueIdx

/-- Where the rectangle of slab k puts its index (0, p, j): at (k, p, j). -/
theorem idx_slab {n a b : ℕ} (o : ℕ)
    (inb : ∀ ax, (![o, 0, 0] : Fin 3 → ℕ) ax + (![1, a, b] : Fin 3 → ℕ) ax ≤ (⟨3, ![n, a, b]⟩ : Shape).size ax)
    (k : Fin n) (hk : k.val = o) (p : Fin a) (j : Fin b) :
    (Rect.unit (s := ⟨3, ![n, a, b]⟩) ![o, 0, 0] ![1, a, b] inb).toLoadRect.idx (ix3 (0 : Fin 1) p j) = ix3 k p j := by
  funext ax
  apply Fin.ext
  match ax with
  | ⟨0, _⟩ => show o + 1 * 0 = k.val; omega
  | ⟨1, _⟩ => show 0 + 1 * p.val = p.val; omega
  | ⟨2, _⟩ => show 0 + 1 * j.val = j.val; omega

/-- Slab k of a stack, read through its rectangle. -/
theorem ld_slab {Val : EltTy → Type} {e : EltTy} {n a b : ℕ} (X : (⟨3, ![n, a, b]⟩ : Shape).Idx → Val e) (o : ℕ)
    (inb : ∀ ax, (![o, 0, 0] : Fin 3 → ℕ) ax + (![1, a, b] : Fin 3 → ℕ) ax ≤ (⟨3, ![n, a, b]⟩ : Shape).size ax)
    (k : Fin n) (hk : k.val = o) (p : Fin a) (j : Fin b) :
    View.ld X (Rect.unit (s := ⟨3, ![n, a, b]⟩) ![o, 0, 0] ![1, a, b] inb) (ix3 (0 : Fin 1) p j) = X (ix3 k p j) := by
  show X _ = X _
  congr 1
  funext ax
  apply Fin.ext
  match ax with
  | ⟨0, _⟩ => show o + 1 * 0 = k.val; omega
  | ⟨1, _⟩ => show 0 + 1 * p.val = p.val; omega
  | ⟨2, _⟩ => show 0 + 1 * j.val = j.val; omega

end Cert.Bridge.Slab

end
-- ==== Proof.KernelBlock.lean ====
/-
  What the kernel body leaves in the output block at a grid point.

  The output block at a point has shape [2, 1, 2048]: row u holds the result of the point's copy u.  The body writes it
  with two stores, one row each; the input blocks have the same leading axis of length 2, and copy u's slabs are row u
  of each of them (the shared input x is one whole block).  So the block, at (u, 0, b), is the network of Mlp.lean on
  row u of the weight and bias blocks, at batch entry b.  Both stores are rows of this one function of the block index,
  and together they cover the block.
-/
import proofs.«173759_j57612691308943_2_alg».proof.Proof.Gen.KernelIdeal.Frame
import proofs.«173759_j57612691308943_2_alg».proof.Proof.KernelNet
import proofs.«173759_j57612691308943_2_alg».proof.Proof.LibSlab

noncomputable section

namespace Cert.KernelIdeal.Block

open Cert.KernelIdeal Cert.KernelIdeal.Gen Cert.KernelIdeal.Net Idealize.ShloMosaic Idealize.ShloMosaic.ValueIdx Cert.Mlp
open scoped BigOperators

theorem zeros2 : (![0, 0] : Fin 2 → Nat) = fun _ => 0 := funext fun a => by fin_cases a <;> rfl

/-- Copy u of a point, at batch entry b: the network on row u of the point's weight and bias blocks. -/
def copyNet (x0 : Vec Ideal S2048x128 .bf16) (x1 : Vec Ideal S2x512x128 .f32) (x2 : Vec Ideal S2x512x1 .f32)
    (x3 : Vec Ideal S2x512x512 .f32) (x4 : Vec Ideal S2x512x1 .f32) (x5 : Vec Ideal S2x512x512 .f32)
    (x6 : Vec Ideal S2x512x1 .f32) (x7 : Vec Ideal S2x1x512 .f32) (x8 : Vec Ideal S2x1x1 .f32)
    (u : Fin 2) (b : Fin 2048) : EReal :=
  mlp (fun b i => x0 (ix2 b i))
    (fun o i => x1 (ix3 u o i)) (fun o => x2 (ix3 u o (0 : Fin 1)))
    (fun o i => x3 (ix3 u o i)) (fun o => x4 (ix3 u o (0 : Fin 1)))
    (fun o i => x5 (ix3 u o i)) (fun o => x6 (ix3 u o (0 : Fin 1)))
    (fun i => x7 (ix3 u (0 : Fin 1) i)) (x8 (ix3 u (0 : Fin 1) (0 : Fin 1))) b

/-- The whole output block of a point: entry (u, 0, b) is copy u at batch entry b. -/
def pair (x0 : Vec Ideal S2048x128 .bf16) (x1 : Vec Ideal S2x512x128 .f32) (x2 : Vec Ideal S2x512x1 .f32)
    (x3 : Vec Ideal S2x512x512 .f32) (x4 : Vec Ideal S2x512x1 .f32) (x5 : Vec Ideal S2x512x512 .f32)
    (x6 : Vec Ideal S2x512x1 .f32) (x7 : Vec Ideal S2x1x512 .f32) (x8 : Vec Ideal S2x1x1 .f32) :
    S2x1x2048.Idx → EReal :=
  fun y => copyNet x0 x1 x2 x3 x4 x5 x6 x7 x8 (y 0) (y 2)

/-- Row 0 of the output block is where the first store's rectangle puts its entries. -/
theorem emb_row0 (b : Fin 2048) :
    (r0_6 : Rect S2x1x2048).emb (ix3 (0 : Fin 1) (0 : Fin 1) b) = ix3 (0 : Fin 2) (0 : Fin 1) b := by
  funext ax
  apply Fin.ext
  match ax with
  | ⟨0, _⟩ => show 0 + 1 * 0 = 0; rfl
  | ⟨1, _⟩ => show 0 + 1 * 0 = 0; rfl
  | ⟨2, _⟩ => show 0 + 1 * b.val = b.val; omega

/-- Row 1 of the output block is where the second store's rectangle puts its entries. -/
theorem emb_row1 (b : Fin 2048) :
    (r0_12 : Rect S2x1x2048).emb (ix3 (0 : Fin 1) (0 : Fin 1) b) = ix3 (1 : Fin 2) (0 : Fin 1) b := by
  funext ax
  apply Fin.ext
  match ax with
  | ⟨0, _⟩ => show 1 + 1 * 0 = 1; rfl
  | ⟨1, _⟩ => show 0 + 1 * 0 = 0; rfl
  | ⟨2, _⟩ => show 0 + 1 * b.val = b.val; omega

/-- The first store's payload, over the loads from the blocks, is copy 0. -/
theorem first_eq (x0 : Vec Ideal S2048x128 .bf16) (x1 : Vec Ideal S2x512x128 .f32) (x2 : Vec Ideal S2x512x1 .f32)
    (x3 : Vec Ideal S2x512x512 .f32) (x4 : Vec Ideal S2x512x1 .f32) (x5 : Vec Ideal S2x512x512 .f32)
    (x6 : Vec Ideal S2x512x1 .f32) (x7 : Vec Ideal S2x1x512 .f32) (x8 : Vec Ideal S2x1x1 .f32) (b : Fin 2048) :
    k0_pay5 (k0_pay3 (View.ld x0 r0_0) (View.ld x1 r0_1) (View.ld x2 r0_2) (View.ld x3 r0_3) (View.ld x4 r0_2)
        (View.ld x5 r0_3) (View.ld x6 r0_2)) (k0_pay4 (F := Ideal)) (View.ld x7 r0_4) (View.ld x8 r0_5)
        (ix3 (0 : Fin 1) (0 : Fin 1) b)
      = copyNet x0 x1 x2 x3 x4 x5 x6 x7 x8 (0 : Fin 2) b := by
  rw [pay_first, net_apply]
  have e0 : ∀ b i, View.ld x0 r0_0 (ix2 b i) = x0 (ix2 b i) := fun b i => congrFun (View.ld_unit_zero zeros2 _ x0) _
  have e1 : ∀ o i, View.ld x1 r0_1 (ix3 (0 : Fin 1) o i) = x1 (ix3 (0 : Fin 2) o i) :=
    fun o i => Cert.Bridge.Slab.ld_slab x1 0 _ (0 : Fin 2) rfl o i
  have e2 : ∀ o i, View.ld x2 r0_2 (ix3 (0 : Fin 1) o i) = x2 (ix3 (0 : Fin 2) o i) :=
    fun o i => Cert.Bridge.Slab.ld_slab x2 0 _ (0 : Fin 2) rfl o i
  have e3 : ∀ o i, View.ld x3 r0_3 (ix3 (0 : Fin 1) o i) = x3 (ix3 (0 : Fin 2) o i) :=
    fun o i => Cert.Bridge.Slab.ld_slab x3 0 _ (0 : Fin 2) rfl o i
  have e4 : ∀ o i, View.ld x4 r0_2 (ix3 (0 : Fin 1) o i) = x4 (ix3 (0 : Fin 2) o i) :=
    fun o i => Cert.Bridge.Slab.ld_slab x4 0 _ (0 : Fin 2) rfl o i
  have e5 : ∀ o i, View.ld x5 r0_3 (ix3 (0 : Fin 1) o i) = x5 (ix3 (0 : Fin 2) o i) :=
    fun o i => Cert.Bridge.Slab.ld_slab x5 0 _ (0 : Fin 2) rfl o i
  have e6 : ∀ o i, View.ld x6 r0_2 (ix3 (0 : Fin 1) o i) = x6 (ix3 (0 : Fin 2) o i) :=
    fun o i => Cert.Bridge.Slab.ld_slab x6 0 _ (0 : Fin 2) rfl o i
  have e7 : ∀ o i, View.ld x7 r0_4 (ix3 (0 : Fin 1) o i) = x7 (ix3 (0 : Fin 2) o i) :=
    fun o i => Cert.Bridge.Slab.ld_slab x7 0 _ (0 : Fin 2) rfl o i
  have e8 : ∀ o i, View.ld x8 r0_5 (ix3 (0 : Fin 1) o i) = x8 (ix3 (0 : Fin 2) o i) :=
    fun o i => Cert.Bridge.Slab.ld_slab x8 0 _ (0 : Fin 2) rfl o i
  unfold copyNet
  simp only [e0, e1, e2, e3, e4, e5, e6, e7, e8]

/-- The second store's payload, over the loads from the blocks, is copy 1. -/
theorem second_eq (x0 : Vec Ideal S2048x128 .bf16) (x1 : Vec Ideal S2x512x128 .f32) (x2 : Vec Ideal S2x512x1 .f32)
    (x3 : Vec Ideal S2x512x512 .f32) (x4 : Vec Ideal S2x512x1 .f32) (x5 : Vec Ideal S2x512x512 .f32)
    (x6 : Vec Ideal S2x512x1 .f32) (x7 : Vec Ideal S2x1x512 .f32) (x8 : Vec Ideal S2x1x1 .f32) (b : Fin 2048) :
    k0_pay1 (k0_pay6 (k0_pay2 (View.ld x0 r0_0)) (View.ld x1 r0_7) (View.ld x2 r0_8) (View.ld x3 r0_9) (View.ld x4 r0_8))
        (k0_pay7 (F := Ideal)) (View.ld x5 r0_9) (View.ld x6 r0_8) (View.ld x7 r0_10) (View.ld x8 r0_11)
        (ix3 (0 : Fin 1) (0 : Fin 1) b)
      = copyNet x0 x1 x2 x3 x4 x5 x6 x7 x8 (1 : Fin 2) b := by
  rw [pay_second, net_apply]
  have e0 : ∀ b i, View.ld x0 r0_0 (ix2 b i) = x0 (ix2 b i) := fun b i => congrFun (View.ld_unit_zero zeros2 _ x0) _
  have e1 : ∀ o i, View.ld x1 r0_7 (ix3 (0 : Fin 1) o i) = x1 (ix3 (1 : Fin 2) o i) :=
    fun o i => Cert.Bridge.Slab.ld_slab x1 1 _ (1 : Fin 2) rfl o i
  have e2 : ∀ o i, View.ld x2 r0_8 (ix3 (0 : Fin 1) o i) = x2 (ix3 (1 : Fin 2) o i) :=
    fun o i => Cert.Bridge.Slab.ld_slab x2 1 _ (1 : Fin 2) rfl o i
  have e3 : ∀ o i, View.ld x3 r0_9 (ix3 (0 : Fin 1) o i) = x3 (ix3 (1 : Fin 2) o i) :=
    fun o i => Cert.Bridge.Slab.ld_slab x3 1 _ (1 : Fin 2) rfl o i
  have e4 : ∀ o i, View.ld x4 r0_8 (ix3 (0 : Fin 1) o i) = x4 (ix3 (1 : Fin 2) o i) :=
    fun o i => Cert.Bridge.Slab.ld_slab x4 1 _ (1 : Fin 2) rfl o i
  have e5 : ∀ o i, View.ld x5 r0_9 (ix3 (0 : Fin 1) o i) = x5 (ix3 (1 : Fin 2) o i) :=
    fun o i => Cert.Bridge.Slab.ld_slab x5 1 _ (1 : Fin 2) rfl o i
  have e6 : ∀ o i, View.ld x6 r0_8 (ix3 (0 : Fin 1) o i) = x6 (ix3 (1 : Fin 2) o i) :=
    fun o i => Cert.Bridge.Slab.ld_slab x6 1 _ (1 : Fin 2) rfl o i
  have e7 : ∀ o i, View.ld x7 r0_10 (ix3 (0 : Fin 1) o i) = x7 (ix3 (1 : Fin 2) o i) :=
    fun o i => Cert.Bridge.Slab.ld_slab x7 1 _ (1 : Fin 2) rfl o i
  have e8 : ∀ o i, View.ld x8 r0_11 (ix3 (0 : Fin 1) o i) = x8 (ix3 (1 : Fin 2) o i) :=
    fun o i => Cert.Bridge.Slab.ld_slab x8 1 _ (1 : Fin 2) rfl o i
  unfold copyNet
  simp only [e0, e1, e2, e3, e4, e5, e6, e7, e8]

/-- What the body leaves in the output block, entry by entry: the two copies' networks. -/
theorem out_eq (x0 : Vec Ideal S2048x128 .bf16) (x1 : Vec Ideal S2x512x128 .f32) (x2 : Vec Ideal S2x512x1 .f32)
    (x3 : Vec Ideal S2x512x512 .f32) (x4 : Vec Ideal S2x512x1 .f32) (x5 : Vec Ideal S2x512x512 .f32)
    (x6 : Vec Ideal S2x512x1 .f32) (x7 : Vec Ideal S2x1x512 .f32) (x8 : Vec Ideal S2x1x1 .f32) (y : S2x1x2048.Idx) :
    out0_9 x0 x1 x2 x3 x4 x5 x6 x7 x8 y = pair x0 x1 x2 x3 x4 x5 x6 x7 x8 y := by
  unfold out0_9
  refine View.canon_apply_of_pieces (Val := Elt Ideal) (pair x0 x1 x2 x3 x4 x5 x6 x7 x8 : S2x1x2048.Idx → Elt Ideal .f32) _ ?_ y (cover0_9 _ _ y)
  intro p hp x
  simp only [List.mem_cons, List.mem_nil_iff, or_false] at hp
  rcases hp with rfl | rfl
  · obtain ⟨u, z, b, rfl⟩ : ∃ (u : Fin 1) (z : Fin 1) (b : Fin 2048), x = ix3 u z b := ⟨x 0, x 1, x 2, eq_ix3 x⟩
    obtain rfl : u = 0 := Subsingleton.elim _ _
    obtain rfl : z = 0 := Subsingleton.elim _ _
    refine (second_eq x0 x1 x2 x3 x4 x5 x6 x7 x8 b).trans ?_
    show _ = pair x0 x1 x2 x3 x4 x5 x6 x7 x8 ((r0_12 : Rect S2x1x2048).emb (ix3 (0 : Fin 1) (0 : Fin 1) b))
    rw [emb_row1]
    rfl
  · obtain ⟨u, z, b, rfl⟩ : ∃ (u : Fin 1) (z : Fin 1) (b : Fin 2048), x = ix3 u z b := ⟨x 0, x 1, x 2, eq_ix3 x⟩
    obtain rfl : u = 0 := Subsingleton.elim _ _
    obtain rfl : z = 0 := Subsingleton.elim _ _
    refine (first_eq x0 x1 x2 x3 x4 x5 x6 x7 x8 b).trans ?_
    show _ = pair x0 x1 x2 x3 x4 x5 x6 x7 x8 ((r0_6 : Rect S2x1x2048).emb (ix3 (0 : Fin 1) (0 : Fin 1) b))
    rw [emb_row0]
    rfl

end Cert.KernelIdeal.Block

end
-- ==== Proof.KernelArray.lean ====
/-
  The kernel's output array after the run, and @main's result.

  The grid has 32 points; point t stages rows 2t and 2t+1 of every weight and bias array (the shared input x whole)
  and writes back rows 2t and 2t+1 of the [64, 1, 2048] output array.  By KernelBlock.lean the block it writes back
  holds, at (u, 0, b), copy u's network on row u of the staged blocks, that is copy 2t+u's network on the arrays: the
  block is rows 2t, 2t+1 of the one array Mlp.stack.  The 32 blocks cover the 64 rows, so the output array ends as
  Mlp.stack of the arrays as the region finds them.  Those are the program's arguments: the one host operation before
  the region rewrites x in another float format, the identity on the extended reals.  The host operation after the
  region transposes the output array into @main's result.
-/
import proofs.«173759_j57612691308943_2_alg».proof.Proof.Gen.KernelIdeal.Frame
import proofs.«173759_j57612691308943_2_alg».proof.Proof.KernelBlock
import Idealize.ShloMosaic.Lib.StableHlo.Run
import Idealize.ShloMosaic.Lib.Pipeline.Value

set_option maxRecDepth 16384

noncomputable section

namespace Cert.KernelIdeal.Array

open Cert.KernelIdeal Cert.KernelIdeal.Gen Idealize.ShloMosaic Idealize.ShloMosaic.TcCoe Idealize.ShloMosaic.ValueIdx
open Idealize.SL Idealize.SL.Sem Idealize.ShloMosaic.StableHlo
open Idealize.ShloMosaic.Pipeline (Dat Cfg Window)
open Cert.Mlp Cert.KernelIdeal.Block

variable (m : (ℓ : Loc nD τ sig) → Buf (Elt Ideal) ℓ) (ρ : Dev nD → PrngReg)

/-! ## The printed index maps, decided over the 32 points -/

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 3) = t.val ∧ win0_1.index t (1 : Fin 3) = 0
    ∧ win0_1.index t (2 : Fin 3) = 0 :=
  (by decide +kernel : ∀ t : Fin grid0.N, _)
theorem idx2 : ∀ t : Fin cfg0.N, win0_2.index t (0 : Fin 3) = t.val ∧ win0_2.index t (1 : Fin 3) = 0
    ∧ win0_2.index t (2 : Fin 3) = 0 :=
  (by decide +kernel : ∀ t : Fin grid0.N, _)
theorem idx3 : ∀ t : Fin cfg0.N, win0_3.index t (0 : Fin 3) = t.val ∧ win0_3.index t (1 : Fin 3) = 0
    ∧ win0_3.index t (2 : Fin 3) = 0 :=
  (by decide +kernel : ∀ t : Fin grid0.N, _)
theorem idx4 : ∀ t : Fin cfg0.N, win0_4.index t (0 : Fin 3) = t.val ∧ win0_4.index t (1 : Fin 3) = 0
    ∧ win0_4.index t (2 : Fin 3) = 0 :=
  (by decide +kernel : ∀ t : Fin grid0.N, _)
theorem idx5 : ∀ t : Fin cfg0.N, win0_5.index t (0 : Fin 3) = t.val ∧ win0_5.index t (1 : Fin 3) = 0
    ∧ win0_5.index t (2 : Fin 3) = 0 :=
  (by decide +kernel : ∀ t : Fin grid0.N, _)
theorem idx6 : ∀ t : Fin cfg0.N, win0_6.index t (0 : Fin 3) = t.val ∧ win0_6.index t (1 : Fin 3) = 0
    ∧ win0_6.index t (2 : Fin 3) = 0 :=
  (by decide +kernel : ∀ t : Fin grid0.N, _)
theorem idx7 : ∀ t : Fin cfg0.N, win0_7.index t (0 : Fin 3) = t.val ∧ win0_7.index t (1 : Fin 3) = 0
    ∧ win0_7.index t (2 : Fin 3) = 0 :=
  (by decide +kernel : ∀ t : Fin grid0.N, _)
theorem idx8 : ∀ t : Fin cfg0.N, win0_8.index t (0 : Fin 3) = t.val ∧ win0_8.index t (1 : Fin 3) = 0
    ∧ win0_8.index t (2 : Fin 3) = 0 :=
  (by decide +kernel : ∀ t : Fin grid0.N, _)
theorem idx9 : ∀ t : Fin cfg0.N, win0_9.index t (0 : Fin 3) = t.val ∧ win0_9.index t (1 : Fin 3) = 0
    ∧ win0_9.index t (2 : Fin 3) = 0 :=
  (by decide +kernel : ∀ t : Fin grid0.N, _)
/-- Every pair of rows is some point's. -/
theorem idx9_onto : ∀ q : Fin 32, ∃ t : Fin cfg0.N, win0_9.index t = ![q.val, 0, 0] :=
  (by decide +kernel : ∀ q : Fin 32, ∃ t : Fin grid0.N, win0_9.index t = ![q.val, 0, 0])

/-- The copy that row u of point t's blocks belongs to: 2t + u. -/
def copyOf (t : Fin cfg0.N) (u : Fin 2) : Fin 64 :=
  ⟨2 * t.val + u.val, by have h : t.val < 32 := lt_of_lt_of_eq t.isLt N_0; have := u.isLt; omega⟩

/-! ## The input blocks, read off the arrays -/

/-- Window 0's block at every point is the whole input. -/
theorem blk0 (c : Dev nD) (t : Fin cfg0.N) (b : Fin 2048) (i : Fin 128) :
    (iblk m c 0 t : Vec Ideal S2048x128 .bf16) (ix2 b i) = V m c main_v0 (ix2 b i) := by
  obtain ⟨e0, e1⟩ := idx0 t
  have he : ((cfg0.win 0).blk t).view.emb (ix2 b i) = ix2 b i := by
    funext a
    apply Fin.ext
    match a with
    | ⟨0, _⟩ => show win0_0.index t (0 : Fin 2) * 2048 + 1 * b.val = b.val; omega
    | ⟨1, _⟩ => show win0_0.index t (1 : Fin 2) * 128 + 1 * i.val = i.val; omega
  show V m c main_v0 (((cfg0.win 0).blk t).view.emb (ix2 b i)) = _
  rw [he]

/-- Window 1's block at point t is rows 2t and 2t+1 of its array. -/
theorem blk1 (c : Dev nD) (t : Fin cfg0.N) (u : Fin 2) (o : Fin 512) (i : Fin 128) :
    (iblk m c 1 t : Vec Ideal S2x512x128 .f32) (ix3 u o i) = V m c main_arg1 (ix3 (copyOf t u) o i) := by
  obtain ⟨e0, e1, e2⟩ := idx1 t
  have he : ((cfg0.win 1).blk t).view.emb (ix3 u o i) = ix3 (copyOf t u) o i := by
    funext a
    apply Fin.ext
    match a with
    | ⟨0, _⟩ => show win0_1.index t (0 : Fin 3) * 2 + 1 * u.val = 2 * t.val + u.val; omega
    | ⟨1, _⟩ => show win0_1.index t (1 : Fin 3) * 512 + 1 * o.val = o.val; omega
    | ⟨2, _⟩ => show win0_1.index t (2 : Fin 3) * 128 + 1 * i.val = i.val; omega
  show V m c main_arg1 (((cfg0.win 1).blk t).view.emb (ix3 u o i)) = _
  rw [he]

/-- Window 2's block at point t is rows 2t and 2t+1 of its array. -/
theorem blk2 (c : Dev nD) (t : Fin cfg0.N) (u : Fin 2) (o : Fin 512) (i : Fin 1) :
    (iblk m c 2 t : Vec Ideal S2x512x1 .f32) (ix3 u o i) = V m c main_arg2 (ix3 (copyOf t u) o i) := by
  obtain ⟨e0, e1, e2⟩ := idx2 t
  have he : ((cfg0.win 2).blk t).view.emb (ix3 u o i) = ix3 (copyOf t u) o i := by
    funext a
    apply Fin.ext
    match a with
    | ⟨0, _⟩ => show win0_2.index t (0 : Fin 3) * 2 + 1 * u.val = 2 * t.val + u.val; omega
    | ⟨1, _⟩ => show win0_2.index t (1 : Fin 3) * 512 + 1 * o.val = o.val; omega
    | ⟨2, _⟩ => show win0_2.index t (2 : Fin 3) * 1 + 1 * i.val = i.val; omega
  show V m c main_arg2 (((cfg0.win 2).blk t).view.emb (ix3 u o i)) = _
  rw [he]

/-- Window 3's block at point t is rows 2t and 2t+1 of its array. -/
theorem blk3 (c : Dev nD) (t : Fin cfg0.N) (u : Fin 2) (o : Fin 512) (i : Fin 512) :
    (iblk m c 3 t : Vec Ideal S2x512x512 .f32) (ix3 u o i) = V m c main_arg3 (ix3 (copyOf t u) o i) := by
  obtain ⟨e0, e1, e2⟩ := idx3 t
  have he : ((cfg0.win 3).blk t).view.emb (ix3 u o i) = ix3 (copyOf t u) o i := by
    funext a
    apply Fin.ext
    match a with
    | ⟨0, _⟩ => show win0_3.index t (0 : Fin 3) * 2 + 1 * u.val = 2 * t.val + u.val; omega
    | ⟨1, _⟩ => show win0_3.index t (1 : Fin 3) * 512 + 1 * o.val = o.val; omega
    | ⟨2, _⟩ => show win0_3.index t (2 : Fin 3) * 512 + 1 * i.val = i.val; omega
  show V m c main_arg3 (((cfg0.win 3).blk t).view.emb (ix3 u o i)) = _
  rw [he]

/-- Window 4's block at point t is rows 2t and 2t+1 of its array. -/
theorem blk4 (c : Dev nD) (t : Fin cfg0.N) (u : Fin 2) (o : Fin 512) (i : Fin 1) :
    (iblk m c 4 t : Vec Ideal S2x512x1 .f32) (ix3 u o i) = V m c main_arg4 (ix3 (copyOf t u) o i) := by
  obtain ⟨e0, e1, e2⟩ := idx4 t
  have he : ((cfg0.win 4).blk t).view.emb (ix3 u o i) = ix3 (copyOf t u) o i := by
    funext a
    apply Fin.ext
    match a with
    | ⟨0, _⟩ => show win0_4.index t (0 : Fin 3) * 2 + 1 * u.val = 2 * t.val + u.val; omega
    | ⟨1, _⟩ => show win0_4.index t (1 : Fin 3) * 512 + 1 * o.val = o.val; omega
    | ⟨2, _⟩ => show win0_4.index t (2 : Fin 3) * 1 + 1 * i.val = i.val; omega
  show V m c main_arg4 (((cfg0.win 4).blk t).view.emb (ix3 u o i)) = _
  rw [he]

/-- Window 5's block at point t is rows 2t and 2t+1 of its array. -/
theorem blk5 (c : Dev nD) (t : Fin cfg0.N) (u : Fin 2) (o : Fin 512) (i : Fin 512) :
    (iblk m c 5 t : Vec Ideal S2x512x512 .f32) (ix3 u o i) = V m c main_arg5 (ix3 (copyOf t u) o i) := by
  obtain ⟨e0, e1, e2⟩ := idx5 t
  have he : ((cfg0.win 5).blk t).view.emb (ix3 u o i) = ix3 (copyOf t u) o i := by
    funext a
    apply Fin.ext
    match a with
    | ⟨0, _⟩ => show win0_5.index t (0 : Fin 3) * 2 + 1 * u.val = 2 * t.val + u.val; omega
    | ⟨1, _⟩ => show win0_5.index t (1 : Fin 3) * 512 + 1 * o.val = o.val; omega
    | ⟨2, _⟩ => show win0_5.index t (2 : Fin 3) * 512 + 1 * i.val = i.val; omega
  show V m c main_arg5 (((cfg0.win 5).blk t).view.emb (ix3 u o i)) = _
  rw [he]

/-- Window 6's block at point t is rows 2t and 2t+1 of its array. -/
theorem blk6 (c : Dev nD) (t : Fin cfg0.N) (u : Fin 2) (o : Fin 512) (i : Fin 1) :
    (iblk m c 6 t : Vec Ideal S2x512x1 .f32) (ix3 u o i) = V m c main_arg6 (ix3 (copyOf t u) o i) := by
  obtain ⟨e0, e1, e2⟩ := idx6 t
  have he : ((cfg0.win 6).blk t).view.emb (ix3 u o i) = ix3 (copyOf t u) o i := by
    funext a
    apply Fin.ext
    match a with
    | ⟨0, _⟩ => show win0_6.index t (0 : Fin 3) * 2 + 1 * u.val = 2 * t.val + u.val; omega
    | ⟨1, _⟩ => show win0_6.index t (1 : Fin 3) * 512 + 1 * o.val = o.val; omega
    | ⟨2, _⟩ => show win0_6.index t (2 : Fin 3) * 1 + 1 * i.val = i.val; omega
  show V m c main_arg6 (((cfg0.win 6).blk t).view.emb (ix3 u o i)) = _
  rw [he]

/-- Window 7's block at point t is rows 2t and 2t+1 of its array. -/
theorem blk7 (c : Dev nD) (t : Fin cfg0.N) (u : Fin 2) (o : Fin 1) (i : Fin 512) :
    (iblk m c 7 t : Vec Ideal S2x1x512 .f32) (ix3 u o i) = V m c main_arg7 (ix3 (copyOf t u) o i) := by
  obtain ⟨e0, e1, e2⟩ := idx7 t
  have he : ((cfg0.win 7).blk t).view.emb (ix3 u o i) = ix3 (copyOf t u) o i := by
    funext a
    apply Fin.ext
    match a with
    | ⟨0, _⟩ => show win0_7.index t (0 : Fin 3) * 2 + 1 * u.val = 2 * t.val + u.val; omega
    | ⟨1, _⟩ => show win0_7.index t (1 : Fin 3) * 1 + 1 * o.val = o.val; omega
    | ⟨2, _⟩ => show win0_7.index t (2 : Fin 3) * 512 + 1 * i.val = i.val; omega
  show V m c main_arg7 (((cfg0.win 7).blk t).view.emb (ix3 u o i)) = _
  rw [he]

/-- Window 8's block at point t is rows 2t and 2t+1 of its array. -/
theorem blk8 (c : Dev nD) (t : Fin cfg0.N) (u : Fin 2) (o : Fin 1) (i : Fin 1) :
    (iblk m c 8 t : Vec Ideal S2x1x1 .f32) (ix3 u o i) = V m c main_arg8 (ix3 (copyOf t u) o i) := by
  obtain ⟨e0, e1, e2⟩ := idx8 t
  have he : ((cfg0.win 8).blk t).view.emb (ix3 u o i) = ix3 (copyOf t u) o i := by
    funext a
    apply Fin.ext
    match a with
    | ⟨0, _⟩ => show win0_8.index t (0 : Fin 3) * 2 + 1 * u.val = 2 * t.val + u.val; omega
    | ⟨1, _⟩ => show win0_8.index t (1 : Fin 3) * 1 + 1 * o.val = o.val; omega
    | ⟨2, _⟩ => show win0_8.index t (2 : Fin 3) * 1 + 1 * i.val = i.val; omega
  show V m c main_arg8 (((cfg0.win 8).blk t).view.emb (ix3 u o i)) = _
  rw [he]

/-! ## What a point writes back -/

/-- The stack of networks on the arrays as the region finds them. -/
def G (c : Dev nD) : S64x1x2048.Idx → Elt Ideal .f32 :=
  stack (V m c main_v0) (V m c main_arg1) (V m c main_arg2) (V m c main_arg3) (V m c main_arg4) (V m c main_arg5)
    (V m c main_arg6) (V m c main_arg7) (V m c main_arg8)

/-- What point t writes back is rows 2t, 2t+1 of the stack. -/
theorem flushed_eq (c : Dev nD) (t : Fin cfg0.N) :
    (dats m 0 c).flushed 9 t = ((cfg0.win 9).blk t).view.read (Elt Ideal) (G m c) := by
  show (cfg0.win 9).cut (grid0.coords t) ((dats m 0 c).after 9 t) = _
  rw [after0_9]
  funext y
  show out0_9 (iblk m c 0 t) (iblk m c 1 t) (iblk m c 2 t) (iblk m c 3 t) (iblk m c 4 t) (iblk m c 5 t) (iblk m c 6 t)
      (iblk m c 7 t) (iblk m c 8 t) y = G m c (((cfg0.win 9).blk t).view.emb y)
  rw [out_eq]
  obtain ⟨u, z, b, rfl⟩ : ∃ (u : Fin 2) (z : Fin 1) (b : Fin 2048), y = ix3 u z b := ⟨y 0, y 1, y 2, eq_ix3 y⟩
  obtain rfl : z = 0 := Subsingleton.elim _ _
  obtain ⟨e0, e1, e2⟩ := idx9 t
  have he : ((cfg0.win 9).blk t).view.emb (ix3 u (0 : Fin 1) b) = ix3 (copyOf t u) (0 : Fin 1) b := by
    funext a
    apply Fin.ext
    match a with
    | ⟨0, _⟩ => show win0_9.index t (0 : Fin 3) * 2 + 1 * u.val = 2 * t.val + u.val; omega
    | ⟨1, _⟩ => show win0_9.index t (1 : Fin 3) * 1 + 1 * 0 = 0; omega
    | ⟨2, _⟩ => show win0_9.index t (2 : Fin 3) * 2048 + 1 * b.val = b.val; omega
  rw [he]
  show copyNet (iblk m c 0 t) (iblk m c 1 t) (iblk m c 2 t) (iblk m c 3 t) (iblk m c 4 t) (iblk m c 5 t) (iblk m c 6 t)
      (iblk m c 7 t) (iblk m c 8 t) u b
    = mlp (fun b i => V m c main_v0 (ix2 b i))
        (fun o i => V m c main_arg1 (ix3 (copyOf t u) o i)) (fun o => V m c main_arg2 (ix3 (copyOf t u) o (0 : Fin 1)))
        (fun o i => V m c main_arg3 (ix3 (copyOf t u) o i)) (fun o => V m c main_arg4 (ix3 (copyOf t u) o (0 : Fin 1)))
        (fun o i => V m c main_arg5 (ix3 (copyOf t u) o i)) (fun o => V m c main_arg6 (ix3 (copyOf t u) o (0 : Fin 1)))
        (fun i => V m c main_arg7 (ix3 (copyOf t u) (0 : Fin 1) i))
        (V m c main_arg8 (ix3 (copyOf t u) (0 : Fin 1) (0 : Fin 1))) b
  unfold copyNet
  simp only [blk0 m c t, blk1 m c t, blk2 m c t, blk3 m c t, blk4 m c t, blk5 m c t, blk6 m c t, blk7 m c t, blk8 m c t]

/-! ## The blocks cover the array -/

theorem mem_blk (t : Fin cfg0.N) (i : S64x1x2048.Idx) :
    i ∈ ((cfg0.win 9).blk t).view.set ↔ ∀ a : Fin 3, win0_9.index t a * S2x1x2048.size a ≤ (i a).val
      ∧ (i a).val < win0_9.index t a * S2x1x2048.size a + S2x1x2048.size a := by
  show i ∈ ((View.whole main_v1).slice (win0_9.rect t)).set ↔ _
  rw [View.set_slice_whole, Rect.mem_set_unit]
  exact Iff.rfl

/-- Row k of the output array is in the block of point k / 2. -/
theorem covered (i : S64x1x2048.Idx) :
    ∃ t : Fin cfg0.N, (cfg0.win 9).flush t = true ∧ i ∈ ((cfg0.win 9).blk t).view.set := by
  have hi0 : (i 0).val < 64 := (i 0).isLt
  have hi1 : (i 1).val < 1 := (i 1).isLt
  have hi2 : (i 2).val < 2048 := (i 2).isLt
  obtain ⟨t, ht⟩ := idx9_onto ⟨(i 0).val / 2, by omega⟩
  have q0 : win0_9.index t (0 : Fin 3) = (i 0).val / 2 := congrFun ht 0
  have q1 : win0_9.index t (1 : Fin 3) = 0 := congrFun ht 1
  have q2 : win0_9.index t (2 : Fin 3) = 0 := congrFun ht 2
  refine ⟨t, flush0_9 t, ?_⟩
  rw [mem_blk]
  intro a
  match a with
  | ⟨0, _⟩ => show win0_9.index t (0 : Fin 3) * 2 ≤ (i 0).val ∧ (i 0).val < win0_9.index t (0 : Fin 3) * 2 + 2; omega
  | ⟨1, _⟩ => show win0_9.index t (1 : Fin 3) * 1 ≤ (i 1).val ∧ (i 1).val < win0_9.index t (1 : Fin 3) * 1 + 1; omega
  | ⟨2, _⟩ => show win0_9.index t (2 : Fin 3) * 2048 ≤ (i 2).val ∧ (i 2).val < win0_9.index t (2 : Fin 3) * 2048 + 2048; omega

/-- The output array after the run is the stack. -/
theorem final (c : Dev nD) : (dats m 0 c).arrAt 9 cfg0.N = G m c :=
  (dats m 0 c).arrAt_eq_of_cover 9 (G m c) (fun t _ => flushed_eq m c t) covered

/-! ## The arrays as the region finds them are the arguments -/

/-- The input after the host's change of float format is the argument x, entry by entry. -/
theorem V_main_v0 (c : Dev nD) :
    (V m c main_v0 : S2048x128.Idx → EReal) = m ((c : Thread nD τ).loc main_arg0) := by
  show StableHlo.after hostOps0 (fun b => m (c, b)) (Proc.devRef .tc main_v0) = _
  after_results
  rfl

/-- The stack on the program's arguments. -/
def result (c : Dev nD) : S64x1x2048.Idx → Elt Ideal .f32 :=
  stack (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

theorem G_eq (c : Dev nD) : G m c = result m c := by
  unfold G result
  rw [V_main_v0, V_main_arg1, V_main_arg2, V_main_arg3, V_main_arg4, V_main_arg5, V_main_arg6, V_main_arg7, V_main_arg8]

/-! ## The run, read -/

/-- @main's result after the frame run: the output array, transposed by the host operation after the region. -/
theorem post_result (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v2)
      = transpose S2048x1x64 [2, 1, 0] (result m c) transposes_S64x1x2048_S2048x1x64_2_1_0 := by
  refine ((h c).2 main_v2 (Pipeline.mem_restRefs_of main_v2 (by decide) (by decide))).trans ?_
  unfold Pipeline.afterTail₀
  show StableHlo.after hostOps1 _ (Proc.devRef .tc main_v2) = _
  after_results
  rw [Pipeline.withArrays_arr spec0 launch0.win.arr_inj c _ _ 9, final, G_eq]

/-- Every weakly fair execution of the idealized kernel program terminates with @main's result at the transposed
    stack of networks on the arguments, and the arguments unchanged. -/
theorem run : θ_run defs (onTc (τ := τ) (main (F := Ideal))) ⟨m, fun _ => 0, ρ⟩ fun r => ∀ c : Dev nD,
      r.2.mem ((c.tc : Thread nD τ).loc main_v2)
        = transpose S2048x1x64 [2, 1, 0] (result m c) transposes_S64x1x2048_S2048x1x64_2_1_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨post_result m r h c,
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c)))⟩)
    (run_main m ρ)

end Cert.KernelIdeal.Array

end
-- ==== Proof.RefValue.lean ====
/-
  The reference program computes the stack of networks.

  The reference keeps every layer of all 64 copies as one [64, 512, 2048] array.  Its first product contracts W1's last
  axis with the input's last axis; the later ones are batched over the copy and contract the weights' last axis with
  the activations' middle axis; each bias [64, 512, 1] is spread over the batch axis, and the positive part is the
  maximum with a splat of the zero word.  Read at (k, o, b), layer by layer, these are the layers of Mlp.lean for copy
  k at batch entry b, with the sums in the same order and each product written weight first, so the array before the
  final transposition is Mlp.stack of the arguments.
-/
import proofs.«173759_j57612691308943_2_alg».proof.Proof.Gen.ReferenceIdeal.Read
import proofs.«173759_j57612691308943_2_alg».proof.Proof.Mlp

noncomputable section

namespace Cert.ReferenceIdeal.RefValue

open Cert.ReferenceIdeal Cert.ReferenceIdeal.Read Idealize.ShloMosaic Idealize.ShloMosaic.ValueIdx Cert.Mlp
open scoped BigOperators

/-! ## Where each operation reads its operands, by coordinates -/

theorem l0 (k : Fin 64) (o : Fin 512) (b : Fin 2048) (i : Fin 128) : lidx_main_v0 (ix3 k o b) i = ix3 k o i :=
  funext fun a => Fin.ext (by match a with | ⟨0, _⟩ => rfl | ⟨1, _⟩ => rfl | ⟨2, _⟩ => rfl)
theorem r0 (k : Fin 64) (o : Fin 512) (b : Fin 2048) (i : Fin 128) : ridx_main_v0 (ix3 k o b) i = ix2 b i :=
  funext fun a => Fin.ext (by match a with | ⟨0, _⟩ => rfl | ⟨1, _⟩ => rfl)
theorem i1 (k : Fin 64) (o : Fin 512) (b : Fin 2048) : idx_main_v1 (ix3 k o b) = ix3 k o (0 : Fin 1) :=
  funext fun a => Fin.ext (by match a with | ⟨0, _⟩ => rfl | ⟨1, _⟩ => rfl | ⟨2, _⟩ => rfl)
theorem l4 (k : Fin 64) (o : Fin 512) (b : Fin 2048) (i : Fin 512) : lidx_main_v4 (ix3 k o b) i = ix3 k o i :=
  funext fun a => Fin.ext (by match a with | ⟨0, _⟩ => rfl | ⟨1, _⟩ => rfl | ⟨2, _⟩ => rfl)
theorem r4 (k : Fin 64) (o : Fin 512) (b : Fin 2048) (i : Fin 512) : ridx_main_v4 (ix3 k o b) i = ix3 k i b :=
  funext fun a => Fin.ext (by match a with | ⟨0, _⟩ => rfl | ⟨1, _⟩ => rfl | ⟨2, _⟩ => rfl)
theorem i5 (k : Fin 64) (o : Fin 512) (b : Fin 2048) : idx_main_v5 (ix3 k o b) = ix3 k o (0 : Fin 1) :=
  funext fun a => Fin.ext (by match a with | ⟨0, _⟩ => rfl | ⟨1, _⟩ => rfl | ⟨2, _⟩ => rfl)
theorem l8 (k : Fin 64) (o : Fin 512) (b : Fin 2048) (i : Fin 512) : lidx_main_v8 (ix3 k o b) i = ix3 k o i :=
  funext fun a => Fin.ext (by match a with | ⟨0, _⟩ => rfl | ⟨1, _⟩ => rfl | ⟨2, _⟩ => rfl)
theorem r8 (k : Fin 64) (o : Fin 512) (b : Fin 2048) (i : Fin 512) : ridx_main_v8 (ix3 k o b) i = ix3 k i b :=
  funext fun a => Fin.ext (by match a with | ⟨0, _⟩ => rfl | ⟨1, _⟩ => rfl | ⟨2, _⟩ => rfl)
theorem i9 (k : Fin 64) (o : Fin 512) (b : Fin 2048) : idx_main_v9 (ix3 k o b) = ix3 k o (0 : Fin 1) :=
  funext fun a => Fin.ext (by match a with | ⟨0, _⟩ => rfl | ⟨1, _⟩ => rfl | ⟨2, _⟩ => rfl)
theorem l12 (k : Fin 64) (b : Fin 2048) (i : Fin 512) : lidx_main_v12 (ix3 k (0 : Fin 1) b) i = ix3 k (0 : Fin 1) i :=
  funext fun a => Fin.ext (by match a with | ⟨0, _⟩ => rfl | ⟨1, _⟩ => rfl | ⟨2, _⟩ => rfl)
theorem r12 (k : Fin 64) (b : Fin 2048) (i : Fin 512) : ridx_main_v12 (ix3 k (0 : Fin 1) b) i = ix3 k i b :=
  funext fun a => Fin.ext (by match a with | ⟨0, _⟩ => rfl | ⟨1, _⟩ => rfl | ⟨2, _⟩ => rfl)
theorem i13 (k : Fin 64) (b : Fin 2048) : idx_main_v13 (ix3 k (0 : Fin 1) b) = ix3 k (0 : Fin 1) (0 : Fin 1) :=
  funext fun a => Fin.ext (by match a with | ⟨0, _⟩ => rfl | ⟨1, _⟩ => rfl | ⟨2, _⟩ => rfl)

/-! ## The activations, layer by layer, at (k, o, b) -/

/-- After the first positive part: layer 1 of copy k on the input row b. -/
theorem act1 (x0 : (⟨S2048x128, .f32⟩ : BufTy).Contents (Elt Ideal)) (x1 : (⟨S64x512x128, .f32⟩ : BufTy).Contents (Elt Ideal)) (x2 : (⟨S64x512x1, .f32⟩ : BufTy).Contents (Elt Ideal)) (k : Fin 64) (o : Fin 512) (b : Fin 2048) :
    val_main_v3 (F := Ideal) x0 x1 x2 (ix3 k o b)
      = pos (layer (fun o i => x1 (ix3 k o i)) (fun o => x2 (ix3 k o (0 : Fin 1))) (fun i => x0 (ix2 b i)) o) := by
  rw [val_main_v3_apply, val_main_v2_apply, val_main_v0_apply, val_main_v1_apply, val_main_call0_v0_apply,
    val_main_call0_cst_apply]
  simp only [l0, r0, i1]
  rfl

/-- After the second positive part: layer 2 of copy k on the first activations. -/
theorem act2 (x0 : (⟨S2048x128, .f32⟩ : BufTy).Contents (Elt Ideal)) (x1 : (⟨S64x512x128, .f32⟩ : BufTy).Contents (Elt Ideal)) (x2 : (⟨S64x512x1, .f32⟩ : BufTy).Contents (Elt Ideal))
    (x3 : (⟨S64x512x512, .f32⟩ : BufTy).Contents (Elt Ideal)) (x4 : (⟨S64x512x1, .f32⟩ : BufTy).Contents (Elt Ideal))  (k : Fin 64) (o : Fin 512) (b : Fin 2048) :
    val_main_v7 (F := Ideal) x0 x1 x2 x3 x4 (ix3 k o b)
      = pos (layer (fun o i => x3 (ix3 k o i)) (fun o => x4 (ix3 k o (0 : Fin 1)))
          (fun i => val_main_v3 (F := Ideal) x0 x1 x2 (ix3 k i b)) o) := by
  rw [val_main_v7_apply, val_main_v6_apply, val_main_v4_apply, val_main_v5_apply, val_main_call1_v0_apply,
    val_main_call1_cst_apply]
  simp only [l4, r4, i5]
  rfl

/-- After the third positive part: layer 3 of copy k on the second activations. -/
theorem act3 (x0 : (⟨S2048x128, .f32⟩ : BufTy).Contents (Elt Ideal)) (x1 : (⟨S64x512x128, .f32⟩ : BufTy).Contents (Elt Ideal)) (x2 : (⟨S64x512x1, .f32⟩ : BufTy).Contents (Elt Ideal))
    (x3 : (⟨S64x512x512, .f32⟩ : BufTy).Contents (Elt Ideal)) (x4 : (⟨S64x512x1, .f32⟩ : BufTy).Contents (Elt Ideal)) (x5 : (⟨S64x512x512, .f32⟩ : BufTy).Contents (Elt Ideal)) (x6 : (⟨S64x512x1, .f32⟩ : BufTy).Contents (Elt Ideal)) (k : Fin 64) (o : Fin 512) (b : Fin 2048) :
    val_main_v11 (F := Ideal) x0 x1 x2 x3 x4 x5 x6 (ix3 k o b)
      = pos (layer (fun o i => x5 (ix3 k o i)) (fun o => x6 (ix3 k o (0 : Fin 1)))
          (fun i => val_main_v7 (F := Ideal) x0 x1 x2 x3 x4 (ix3 k i b)) o) := by
  rw [val_main_v11_apply, val_main_v10_apply, val_main_v8_apply, val_main_v9_apply, val_main_call2_v0_apply,
    val_main_call2_cst_apply]
  simp only [l8, r8, i9]
  rfl

/-- The array before the transposition, at (k, 0, b): copy k's network at batch entry b. -/
theorem out_apply (x0 : (⟨S2048x128, .f32⟩ : BufTy).Contents (Elt Ideal)) (x1 : (⟨S64x512x128, .f32⟩ : BufTy).Contents (Elt Ideal)) (x2 : (⟨S64x512x1, .f32⟩ : BufTy).Contents (Elt Ideal))
    (x3 : (⟨S64x512x512, .f32⟩ : BufTy).Contents (Elt Ideal)) (x4 : (⟨S64x512x1, .f32⟩ : BufTy).Contents (Elt Ideal)) (x5 : (⟨S64x512x512, .f32⟩ : BufTy).Contents (Elt Ideal)) (x6 : (⟨S64x512x1, .f32⟩ : BufTy).Contents (Elt Ideal))
    (x7 : (⟨S64x1x512, .f32⟩ : BufTy).Contents (Elt Ideal)) (x8 : (⟨S64x1x1, .f32⟩ : BufTy).Contents (Elt Ideal)) (k : Fin 64) (b : Fin 2048) :
    val_main_v14 (F := Ideal) x0 x1 x2 x3 x4 x5 x6 x7 x8 (ix3 k (0 : Fin 1) b)
      = mlp (fun b i => x0 (ix2 b i))
          (fun o i => x1 (ix3 k o i)) (fun o => x2 (ix3 k o (0 : Fin 1)))
          (fun o i => x3 (ix3 k o i)) (fun o => x4 (ix3 k o (0 : Fin 1)))
          (fun o i => x5 (ix3 k o i)) (fun o => x6 (ix3 k o (0 : Fin 1)))
          (fun i => x7 (ix3 k (0 : Fin 1) i)) (x8 (ix3 k (0 : Fin 1) (0 : Fin 1))) b := by
  rw [val_main_v14_apply, val_main_v12_apply, val_main_v13_apply]
  simp only [l12, r12, i13, act3, act2, act1]
  rfl

/-- The array before the transposition is the stack of networks on the arguments. -/
theorem stack_eq (x0 : (⟨S2048x128, .f32⟩ : BufTy).Contents (Elt Ideal)) (x1 : (⟨S64x512x128, .f32⟩ : BufTy).Contents (Elt Ideal)) (x2 : (⟨S64x512x1, .f32⟩ : BufTy).Contents (Elt Ideal))
    (x3 : (⟨S64x512x512, .f32⟩ : BufTy).Contents (Elt Ideal)) (x4 : (⟨S64x512x1, .f32⟩ : BufTy).Contents (Elt Ideal)) (x5 : (⟨S64x512x512, .f32⟩ : BufTy).Contents (Elt Ideal)) (x6 : (⟨S64x512x1, .f32⟩ : BufTy).Contents (Elt Ideal))
    (x7 : (⟨S64x1x512, .f32⟩ : BufTy).Contents (Elt Ideal)) (x8 : (⟨S64x1x1, .f32⟩ : BufTy).Contents (Elt Ideal)) :
    val_main_v14 (F := Ideal) x0 x1 x2 x3 x4 x5 x6 x7 x8 = stack x0 x1 x2 x3 x4 x5 x6 x7 x8 := by
  funext j
  obtain ⟨k, z, b, rfl⟩ : ∃ (k : Fin 64) (z : Fin 1) (b : Fin 2048), j = ix3 k z b := ⟨j 0, j 1, j 2, eq_ix3 j⟩
  obtain rfl : z = 0 := Subsingleton.elim _ _
  rw [out_apply]
  rfl

/-- The reference's result: the stack of networks, transposed. -/
theorem result_eq (x0 : (⟨S2048x128, .f32⟩ : BufTy).Contents (Elt Ideal)) (x1 : (⟨S64x512x128, .f32⟩ : BufTy).Contents (Elt Ideal)) (x2 : (⟨S64x512x1, .f32⟩ : BufTy).Contents (Elt Ideal))
    (x3 : (⟨S64x512x512, .f32⟩ : BufTy).Contents (Elt Ideal)) (x4 : (⟨S64x512x1, .f32⟩ : BufTy).Contents (Elt Ideal)) (x5 : (⟨S64x512x512, .f32⟩ : BufTy).Contents (Elt Ideal)) (x6 : (⟨S64x512x1, .f32⟩ : BufTy).Contents (Elt Ideal))
    (x7 : (⟨S64x1x512, .f32⟩ : BufTy).Contents (Elt Ideal)) (x8 : (⟨S64x1x1, .f32⟩ : BufTy).Contents (Elt Ideal)) :
    val_main_v15 (F := Ideal) x0 x1 x2 x3 x4 x5 x6 x7 x8
      = transpose S2048x1x64 [2, 1, 0] (stack x0 x1 x2 x3 x4 x5 x6 x7 x8)
          Facts₀.transposes_S64x1x2048_S2048x1x64_2_1_0 := by
  unfold val_main_v15
  rw [stack_eq]

end Cert.ReferenceIdeal.RefValue

end
-- ==== Proof.lean ====
/-
  A stack of 64 independent four-layer perceptrons on one shared input: the kernel against its reference.

  Both programs compute, for copy k and batch entry b, three dense layers with the positive part and a last layer of
  one output,
      y(k, b) = Σ_i W4(k,0,i)·a3(i) + b4(k),   a_l(o) = max(Σ_i W_l(k,o,i)·a_{l-1}(i) + b_l(k,o), 0),   a_0 = x(b),
  and return the array y transposed to shape [2048, 1, 64] (Proof/Mlp.lean states the function once).

  The kernel program recasts x in a narrower float format on the host, runs a 32-point grid in which point t handles
  copies 2t and 2t+1 with the activations of a copy held as 512×2048 matrices, and transposes the [64, 1, 2048] output
  on the host.  The reference keeps each layer of all copies as one [64, 512, 2048] array.  On the extended reals a
  change of float format is the identity, a product accumulated into a zero splat is the plain sum of products, and
  both programs add the products of a contraction in the same order with the weight as the left factor; so the two
  results are the same array, entry by entry, with no use of finiteness: no sum is rearranged and nothing is cancelled.

  Proof/KernelNet.lean reads one copy's block of the kernel body, Proof/KernelBlock.lean the two copies a point writes,
  Proof/KernelArray.lean the output array after all 32 points and the two host operations, Proof/RefValue.lean the
  reference's layers; here the two runs are put side by side.  The idealized kernel is the printed kernel read on the
  extended reals with no rewrite, so there is nothing to preserve beyond that.
-/
import proofs.«173759_j57612691308943_2_alg».proof.Defs
import proofs.«173759_j57612691308943_2_alg».proof.Proof.Gen.Kernel
import proofs.«173759_j57612691308943_2_alg».proof.Proof.Gen.Kernel.Skeleton
import proofs.«173759_j57612691308943_2_alg».proof.Proof.Gen.Kernel.Launch
import proofs.«173759_j57612691308943_2_alg».proof.Proof.Gen.Kernel.Points
import proofs.«173759_j57612691308943_2_alg».proof.Proof.Gen.Kernel.Frame
import proofs.«173759_j57612691308943_2_alg».proof.Proof.Gen.KernelIdeal
import proofs.«173759_j57612691308943_2_alg».proof.Proof.Gen.KernelIdeal.Skeleton
import proofs.«173759_j57612691308943_2_alg».proof.Proof.Gen.KernelIdeal.Launch
import proofs.«173759_j57612691308943_2_alg».proof.Proof.Gen.KernelIdeal.Points
import proofs.«173759_j57612691308943_2_alg».proof.Proof.Gen.KernelIdeal.Frame
import proofs.«173759_j57612691308943_2_alg».proof.Proof.Gen.ReferenceIdeal
import proofs.«173759_j57612691308943_2_alg».proof.Proof.Gen.Pre_finite_inputs
import proofs.«173759_j57612691308943_2_alg».proof.Proof.Gen.ReferenceIdeal.Run
import proofs.«173759_j57612691308943_2_alg».proof.Proof.Gen.ReferenceIdeal.Read
import proofs.«173759_j57612691308943_2_alg».proof.Proof.KernelArray
import proofs.«173759_j57612691308943_2_alg».proof.Proof.RefValue
import Idealize.ShloMosaic.Adequacy
import Idealize.ShloMosaic.Init

noncomputable section

namespace Cert.Proof

open Idealize.ShloMosaic Idealize.ShloMosaic.TcCoe Idealize.SL.Sem

/-- The printed kernel program runs and leaves its arguments as they were. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the idealized kernel ends at the transposed stack of networks (Proof/KernelArray.lean) and
    the reference at the same array (Proof/RefValue.lean). -/
theorem algebraic : Cert.algebraic_KernelIdeal_ReferenceIdeal := by
  intro m ρ m' ρ' _ hagree
  refine ⟨fun c => transpose Cert.KernelIdeal.S2048x1x64 [2, 1, 0] (Cert.KernelIdeal.Array.result m c)
    Cert.KernelIdeal.Facts₀.transposes_S64x1x2048_S2048x1x64_2_1_0, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
